-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024x1024 .f32) (main_arg5 : FVec F S1024x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S4096x1024 : Shape := ⟨2, ![4096, 1024]⟩
abbrev S1x256x1024 : Shape := ⟨3, ![1, 256, 1024]⟩
abbrev S1x2048x1024 : Shape := ⟨3, ![1, 2048, 1024]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 28
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S2x2048x1024, .bf16⟩
  | .hbm, ⟨22, _⟩ => ⟨S2x2048x1024, .bf16⟩
  | .hbm, ⟨23, _⟩ => ⟨S2x2048x1024, .bf16⟩
  | .hbm, ⟨24, _⟩ => ⟨S2x2048x1024, .bf16⟩
  | .hbm, ⟨25, _⟩ => ⟨S4096x1024, .bf16⟩
  | .hbm, ⟨26, _⟩ => ⟨S4096x1024, .f32⟩
  | .hbm, ⟨27, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 8], ![false, false]⟩

@[reducible] def k3_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k3_mult1 (k3_t1 : Fin k3_t1_loop.trips) : BitVec 32 :=
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let c128_i32 : BitVec 32 := 128#32
  let v3 : BitVec 32 := Scalar.muli v2 c128_i32
  v3
def k3_off1 (k3_t1 : Fin k3_t1_loop.trips) : Fin 3 → Nat :=
  let c0 : Index := 0#32
  let c0_3 : Index := 0#32
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let c128_i32 : BitVec 32 := 128#32
  let v3 : BitVec 32 := Scalar.muli v2 c128_i32
  let v4 : BitVec 32 := v3
  let v5 : Index := Scalar.indexCast v4
  ![0, 0, v5.toNat]
def k3_off2 (k3_t1 : Fin k3_t1_loop.trips) : Fin 3 → Nat :=
  let c0_4 : Index := 0#32
  let c0_5 : Index := 0#32
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let c128_i32 : BitVec 32 := 128#32
  let v3 : BitVec 32 := Scalar.muli v2 c128_i32
  let v4 : BitVec 32 := v3
  let v8 : Index := Scalar.indexCast v4
  ![0, 0, v8.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  transposes_S1024x1024_S1024x1024_1_0 : S1024x1024.Transposes [1, 0] S1024x1024
  bitsLt_bf16_f32 : FTy.bits .bf16 < FTy.bits .f32
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  h_S1x256x128 : 0 < S1x256x128.numel
  shapeCasts_S1x256x128_S256x128 : S1x256x128.ShapeCasts S256x128
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  shapeCasts_S256x128_S1x256x128 : S256x128.ShapeCasts S1x256x128
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hrank3 : 0 < grid3.rank
  k3_t1_ok : k3_t1_loop.OK
  k3_mult1_dvd : ∀ k3_t1 : Fin k3_t1_loop.trips, 128 ∣ (k3_mult1 k3_t1).toNat
  k3_off1_inb : ∀ k3_t1 : Fin k3_t1_loop.trips, ∀ a, (k3_off1 k3_t1) a + S1x256x128.size a ≤ S1x256x1024.size a
  k3_off2_inb : ∀ k3_t1 : Fin k3_t1_loop.trips, ∀ a, (k3_off2 k3_t1) a + S1x2048x128.size a ≤ S1x2048x1024.size a
  k3_off1_packedbf16 : ∀ k3_t1 : Fin k3_t1_loop.trips, (Rect.unit (s := S1x256x1024) (k3_off1 k3_t1) S1x256x128.size (k3_off1_inb k3_t1)).PackedRows (EltTy.packing .bf16)
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S2x2048x1024.size a
  hwx3_0 : ∀ i : grid3.Coords, EltTy.bits .bf16 = 32 ∨ (Rect.block (s := S2x2048x1024) S1x256x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S2x2048x1024.size a
  hwx3_1 : ∀ i : grid3.Coords, EltTy.bits .bf16 = 32 ∨ (Rect.block (s := S2x2048x1024) S1x2048x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S2x2048x1024.size a
  hwx3_2 : ∀ i : grid3.Coords, EltTy.bits .bf16 = 32 ∨ (Rect.block (s := S2x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x1024.size a ≤ S2x2048x1024.size a
  hwx3_3 : ∀ i : grid3.Coords, EltTy.bits .bf16 = 32 ∨ (Rect.block (s := S2x2048x1024) S1x256x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x1024.size a
  hwx4_2 : ∀ i : grid4.Coords, EltTy.bits .f32 = 32 ∨ (Rect.block (s := S4096x1024) S1024x1024.size (cc4_transform_2 i) (hinb4_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v14) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x2048x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x256x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v18) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x1024, .f32⟩
  | .hbm, ⟨14, _⟩ => ⟨S2x2048x16x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its result named. Every weakly fair execution of the program — four
  host stretches around five kernel regions — terminates, and in every final state each buffer holds
  what the fold of the stretches and of the regions' write-backs over the launch memory leaves in it:
  the result buffer at that fold's contents, the seven argument arrays as launched. The final thread
  state holds every unscoped buffer at the last boundary's contents, and reading it against the
  final state gives the equations.
-/
import proofs.«157128_j17892833755600_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v20 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.FlatRow.lean ====
/-
  Row numbering of a [2, 2048, ·] array flattened to [4096, ·]: position s of batch b is row b·2048 + s.
-/
import Idealize.ShloMosaic.Lib.ValueIdx

namespace Cert.Attn

/-- The flat row of batch `b`, position `s`. -/
def flat (b : Fin 2) (s : Fin 2048) : Fin 4096 := ⟨b.val * 2048 + s.val, by omega⟩

theorem flat_val (b : Fin 2) (s : Fin 2048) : (flat b s).val = b.val * 2048 + s.val := rfl

end Cert.Attn
-- ==== Proof.FoldLate.lean ====
/-
  The buffers between the regions, read back through the host reshapes and the regions' exits:
  the later half (from the three projections' outputs to the returned array).

  A reshape between [2, 2048, n] and [4096, n] keeps the row-major position, so entry (b, s, e) of
  the one is entry (b·2048 + s, e) of the other. A region leaves each of its arrays at the folded
  write-backs and every other buffer as it found it; a host stretch leaves every buffer it does
  not write as it found it. A weight matrix enters its region transposed: entry (d, e) of the
  region's operand is entry (e, d) of the argument (the change of format is the identity on the
  extended reals).
-/
import proofs.«157128_j17892833755600_2_alg».proof.Proof.Gen.KernelIdeal.Frame
import proofs.«157128_j17892833755600_2_alg».proof.Proof.FlatRow
import Idealize.ShloMosaic.Lib.Pipeline.Value
import Idealize.ShloMosaic.Lib.ValueIdx
import Idealize.ShloMosaic.Lib.StableHlo.Run

noncomputable section

namespace Cert.KernelIdeal.Fold

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ) (ρ : Dev nD → PrngReg) (c : Dev nD)

/-! ## Row-major positions -/

/-- (b, s, e) of [2, 2048, 1024] and (b·2048 + s, e) of [4096, 1024] are the same position. -/
theorem pos_flat (b : Fin 2) (s : Fin 2048) (e : Fin 1024) :
    (S4096x1024.rowMajor (ix2 (Cert.Attn.flat b s) e)).val = (S2x2048x1024.rowMajor (ix3 b s e)).val := by
  rw [Shape.rowMajor_val_two, Shape.rowMajor_val_three]
  rfl

/-! ## The returned array -/

/-- The returned array is the last region's output, regrouped from rows to (batch, position). -/
theorem out_from_region4 (b : Fin 2) (s : Fin 2048) (e : Fin 1024) :
    W9 m ρ c (Proc.devRef .tc main_v20) (ix3 b s e)
      = (dat4 (F := Ideal) (V7 m ρ) c).arrAt 2 cfg4.N (ix2 (Cert.Attn.flat b s) e) := by
  have e1 : (W9 m ρ c (Proc.devRef .tc main_v20) : S2x2048x1024.Idx → EReal)
      = shapeCast S2x2048x1024 (W8 m ρ c (Proc.devRef .tc main_v19) : S4096x1024.Idx → EReal)
          shapeCasts_S4096x1024_S2x2048x1024 := by
    show StableHlo.after hostOps5 _ (Proc.devRef .tc main_v20) = _
    after_results
    rfl
  have e2 : W8 m ρ c (Proc.devRef .tc main_v19) = (dat4 (F := Ideal) (V7 m ρ) c).arrAt 2 cfg4.N := W8_arr m ρ c 2
  refine (congrFun e1 (ix3 b s e)).trans ?_
  refine (shapeCast_apply _ shapeCasts_S4096x1024_S2x2048x1024 (ix3 b s e) (ix2 (Cert.Attn.flat b s) e) (pos_flat b s e)).trans ?_
  exact congrFun e2 (ix2 (Cert.Attn.flat b s) e)

/-! ## Region 4's operands -/

/-- Region 4's activation operand is region 3's output, regrouped from (batch, position) to rows. -/
theorem ctx_rows (b : Fin 2) (s : Fin 2048) (d : Fin 1024) :
    V7 m ρ c (Pipeline.arrRef spec4 0) (ix2 (Cert.Attn.flat b s) d)
      = (dat3 (F := Ideal) (V5 m ρ) c).arrAt 3 cfg3.N (ix3 b s d) := by
  have e1 : (W7 m ρ c (Proc.devRef .tc main_v18) : S4096x1024.Idx → EReal)
      = shapeCast S4096x1024 (W6 m ρ c (Proc.devRef .tc main_v17) : S2x2048x1024.Idx → EReal)
          shapeCasts_S2x2048x1024_S4096x1024 := by
    show StableHlo.after hostOps4 _ (Proc.devRef .tc main_v18) = _
    after_results
    rfl
  have e2 : W6 m ρ c (Proc.devRef .tc main_v17) = (dat3 (F := Ideal) (V5 m ρ) c).arrAt 3 cfg3.N := W6_arr m ρ c 3
  show W7 m ρ c (Proc.devRef .tc main_v18) (ix2 (Cert.Attn.flat b s) d) = _
  refine (congrFun e1 (ix2 (Cert.Attn.flat b s) d)).trans ?_
  refine (shapeCast_apply _ shapeCasts_S2x2048x1024_S4096x1024 (ix2 (Cert.Attn.flat b s) d) (ix3 b s d) (pos_flat b s d).symm).trans ?_
  exact congrFun e2 (ix3 b s d)

/-- The last layer's weight buffer is written before the first region and by nothing after it. -/
theorem walk_wo : W7 m ρ c (Proc.devRef .tc main_v7) = W1 m ρ c (Proc.devRef .tc main_v7) :=
  calc W7 m ρ c (Proc.devRef .tc main_v7)
    _ = W6 m ρ c (Proc.devRef .tc main_v7) := StableHlo.after_of_forall_not_mem _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7) := W6_of_ne m ρ c main_v7 (by decide)
    _ = W4 m ρ c (Proc.devRef .tc main_v7) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v7) := W4_of_ne m ρ c main_v7 (by decide)
    _ = W2 m ρ c (Proc.devRef .tc main_v7) := W3_of_ne m ρ c main_v7 (by decide)
    _ = W1 m ρ c (Proc.devRef .tc main_v7) := W2_of_ne m ρ c main_v7 (by decide)

/-- Region 4's weight operand at (d, e) is the fourth weight argument at (e, d). -/
theorem woT (d e : Fin 1024) :
    V7 m ρ c (Pipeline.arrRef spec4 1) (ix2 d e) = m ((c.tc : Thread nD τ).loc main_arg6) (ix2 e d) := by
  have e1 : (W1 m ρ c (Proc.devRef .tc main_v7) : S1024x1024.Idx → EReal)
      = truncf (F := Ideal) (φ := .f32) .bf16
          (transpose S1024x1024 [1, 0] (m ((c.tc : Thread nD τ).loc main_arg6) : S1024x1024.Idx → EReal)
            transposes_S1024x1024_S1024x1024_1_0) bitsLt_bf16_f32 := by
    show StableHlo.after hostOps0 _ (Proc.devRef .tc main_v7) = _
    after_results
  show W7 m ρ c (Proc.devRef .tc main_v7) (ix2 d e) = _
  refine (congrFun (walk_wo m ρ c) (ix2 d e)).trans ?_
  refine (congrFun e1 (ix2 d e)).trans ?_
  show transpose S1024x1024 [1, 0] (m ((c.tc : Thread nD τ).loc main_arg6) : S1024x1024.Idx → EReal)
    transposes_S1024x1024_S1024x1024_1_0 (ix2 d e) = _
  exact transpose_apply [1, 0] _ transposes_S1024x1024_S1024x1024_1_0 (ix2 d e) (ix2 e d)
    (fun a => match a with | ⟨0, _⟩ => rfl | ⟨1, _⟩ => rfl)

/-! ## Region 3's operands -/

/-- Region 3's query operand is region 0's output, regrouped from rows to (batch, position). -/
theorem qh_rows (b : Fin 2) (s : Fin 2048) (e : Fin 1024) :
    V5 m ρ c (Pipeline.arrRef spec3 0) (ix3 b s e)
      = (dat0 (F := Ideal) (V1 m ρ) c).arrAt 2 cfg0.N (ix2 (Cert.Attn.flat b s) e) := by
  have e1 : (W5 m ρ c (Proc.devRef .tc main_v14) : S2x2048x1024.Idx → EReal)
      = shapeCast S2x2048x1024 (W4 m ρ c (Proc.devRef .tc main_v11) : S4096x1024.Idx → EReal)
          shapeCasts_S4096x1024_S2x2048x1024 := by
    show StableHlo.after hostOps3 _ (Proc.devRef .tc main_v14) = _
    after_results
    rfl
  have e2 : W4 m ρ c (Proc.devRef .tc main_v11) = (dat0 (F := Ideal) (V1 m ρ) c).arrAt 2 cfg0.N :=
    calc W4 m ρ c (Proc.devRef .tc main_v11)
      _ = W3 m ρ c (Proc.devRef .tc main_v11) := W4_of_ne m ρ c main_v11 (by decide)
      _ = W2 m ρ c (Proc.devRef .tc main_v11) := W3_of_ne m ρ c main_v11 (by decide)
      _ = (dat0 (F := Ideal) (V1 m ρ) c).arrAt 2 cfg0.N := W2_arr m ρ c 2
  show W5 m ρ c (Proc.devRef .tc main_v14) (ix3 b s e) = _
  refine (congrFun e1 (ix3 b s e)).trans ?_
  refine (shapeCast_apply _ shapeCasts_S4096x1024_S2x2048x1024 (ix3 b s e) (ix2 (Cert.Attn.flat b s) e) (pos_flat b s e)).trans ?_
  exact congrFun e2 (ix2 (Cert.Attn.flat b s) e)

/-- Region 3's key operand is region 1's output, regrouped likewise. -/
theorem kh_rows (b : Fin 2) (s : Fin 2048) (e : Fin 1024) :
    V5 m ρ c (Pipeline.arrRef spec3 1) (ix3 b s e)
      = (dat1 (F := Ideal) (V2 m ρ) c).arrAt 2 cfg1.N (ix2 (Cert.Attn.flat b s) e) := by
  have e1 : (W5 m ρ c (Proc.devRef .tc main_v15) : S2x2048x1024.Idx → EReal)
      = shapeCast S2x2048x1024 (W4 m ρ c (Proc.devRef .tc main_v12) : S4096x1024.Idx → EReal)
          shapeCasts_S4096x1024_S2x2048x1024 := by
    show StableHlo.after hostOps3 _ (Proc.devRef .tc main_v15) = _
    after_results
    rfl
  have e2 : W4 m ρ c (Proc.devRef .tc main_v12) = (dat1 (F := Ideal) (V2 m ρ) c).arrAt 2 cfg1.N :=
    calc W4 m ρ c (Proc.devRef .tc main_v12)
      _ = W3 m ρ c (Proc.devRef .tc main_v12) := W4_of_ne m ρ c main_v12 (by decide)
      _ = (dat1 (F := Ideal) (V2 m ρ) c).arrAt 2 cfg1.N := W3_arr m ρ c 2
  show W5 m ρ c (Proc.devRef .tc main_v15) (ix3 b s e) = _
  refine (congrFun e1 (ix3 b s e)).trans ?_
  refine (shapeCast_apply _ shapeCasts_S4096x1024_S2x2048x1024 (ix3 b s e) (ix2 (Cert.Attn.flat b s) e) (pos_flat b s e)).trans ?_
  exact congrFun e2 (ix2 (Cert.Attn.flat b s) e)

/-- Region 3's value operand is region 2's output, regrouped likewise. -/
theorem vh_rows (b : Fin 2) (s : Fin 2048) (e : Fin 1024) :
    V5 m ρ c (Pipeline.arrRef spec3 2) (ix3 b s e)
      = (dat2 (F := Ideal) (V3 m ρ) c).arrAt 2 cfg2.N (ix2 (Cert.Attn.flat b s) e) := by
  have e1 : (W5 m ρ c (Proc.devRef .tc main_v16) : S2x2048x1024.Idx → EReal)
      = shapeCast S2x2048x1024 (W4 m ρ c (Proc.devRef .tc main_v13) : S4096x1024.Idx → EReal)
          shapeCasts_S4096x1024_S2x2048x1024 := by
    show StableHlo.after hostOps3 _ (Proc.devRef .tc main_v16) = _
    after_results
    rfl
  have e2 : W4 m ρ c (Proc.devRef .tc main_v13) = (dat2 (F := Ideal) (V3 m ρ) c).arrAt 2 cfg2.N := W4_arr m ρ c 2
  show W5 m ρ c (Proc.devRef .tc main_v16) (ix3 b s e) = _
  refine (congrFun e1 (ix3 b s e)).trans ?_
  refine (shapeCast_apply _ shapeCasts_S4096x1024_S2x2048x1024 (ix3 b s e) (ix2 (Cert.Attn.flat b s) e) (pos_flat b s e)).trans ?_
  exact congrFun e2 (ix2 (Cert.Attn.flat b s) e)

end Cert.KernelIdeal.Fold

end
-- ==== Proof.MatRegion4.lean ====
/- Region 4 of the kernel is a matrix product: a [4096,1024] left operand, taken 1024 rows at a time over a grid of
   four points, times a whole [1024,1024] right operand, written back 1024 rows at a time. This module reads the
   region's output array after its four points at an entry (r, e): at the ideal values it is the exact dot product of
   row r of the left operand's array with column e of the right operand's array, both as the region finds them. -/
import proofs.«157128_j17892833755600_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.MatRegion.R4

open Cert.KernelIdeal Cert.KernelIdeal.Gen

theorem hz : (![0, 0] : Fin 2 → Nat) = fun _ => 0 := funext fun a => by fin_cases a <;> rfl

/-! ## The product of two square blocks at an entry

The dot record contracts the left factor's axis 1 with the right factor's axis 0: the operand indices at output
entry `j` and contraction position `q` are `(j 0, q)` and `(q, j 1)`. -/

theorem lhs_coord0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_coord1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_coord0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_coord1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator, entry `(p, q)` of the product is row `p` of the left factor against column `q` of the
    right factor. -/
theorem matmul_ix2 {φ₁ φ₂ : FTy} (a : FVec Ideal S1024x1024 φ₁) (b : FVec Ideal S1024x1024 φ₂) (p q : Fin 1024) :
    FloatOps.matmul dot_S1024x1024_S1024x1024_S1024x1024_1_0_0_1_n_n none a b (constant S1024x1024 .f32 0x00000000#32) (ix2 p q)
      = ∑ d : Fin 1024, a (ix2 p d) * b (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun x => Fin.ext (by
    match x with
    | ⟨0, _⟩ => exact lhs_coord0 _ _
    | ⟨1, _⟩ => exact (lhs_coord1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun x => Fin.ext (by
    match x with
    | ⟨0, _⟩ => exact (rhs_coord0 _ _).trans hk
    | ⟨1, _⟩ => exact rhs_coord1 _ _)
  rw [el, er]

/-- The body's arithmetic at an entry of the output block: the reshapes are onto the same shape, so the entry is the
    product's. -/
theorem pay_apply (x0 : Vec Ideal S1024x1024 .bf16) (x1 : Vec Ideal S1024x1024 .bf16) (p q : Fin 1024) :
    k4_pay1 (F := Ideal) x0 x1 (ix2 p q) = ∑ d : Fin 1024, x0 (ix2 p d) * x1 (ix2 d q) := by
  unfold k4_pay1
  simp only [shapeCast_self]
  exact matmul_ix2 (φ₁ := .bf16) (φ₂ := .bf16) x0 x1 p q

/-! ## The whole array -/

/-- Rows of `A` against columns of `B`: entry `(r, e)` is `∑ d, A (r, d) * B (d, e)`. -/
def G (A : S4096x1024.Idx → Elt Ideal .bf16) (B : S1024x1024.Idx → Elt Ideal .bf16) : S4096x1024.Idx → Elt Ideal .f32 :=
  fun i => ∑ d : Fin 1024, A (ix2 (i 0) d) * B (ix2 d (i 1))

/-- One grid point's output block: when the left block is rows `1024 n … 1024 n + 1023` of `A` and the right block is
    `B`, entry `(p, q)` of the body's result is entry `(1024 n + p, q)` of `G A B`. -/
theorem block_entry (A : S4096x1024.Idx → Elt Ideal .bf16) (B : S1024x1024.Idx → Elt Ideal .bf16)
    (x0 : Vec Ideal S1024x1024 .bf16) (x1 : Vec Ideal S1024x1024 .bf16) (n : Nat) (hn : n < 4)
    (h0 : ∀ p d : Fin 1024, x0 (ix2 p d) = A (ix2 (⟨n * 1024 + p.val, by omega⟩ : Fin 4096) d))
    (h1 : ∀ d q : Fin 1024, x1 (ix2 d q) = B (ix2 d q)) (p q : Fin 1024) :
    k4_pay1 (F := Ideal) x0 x1 (ix2 p q) = G A B (ix2 (⟨n * 1024 + p.val, by omega⟩ : Fin 4096) q) := by
  rw [pay_apply]
  unfold G
  exact Finset.sum_congr rfl fun d _ => by rw [h0, h1]

variable (V : (c : Dev nD) → (b : Ref sig .tc) → Buf (Elt Ideal) ((c : Thread nD τ).loc b))

/-- The printed index maps over the four grid points: the left operand's and the output's row-block index is the point,
    their column-block index is 0, and the right operand's block index is (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t` is rows `1024 t … 1024 t + 1023` of its array. -/
theorem left_block (c : Dev nD) (t : Fin cfg4.N) (ht : t.val < 4) (p d : Fin 1024) :
    (iblk4 V c 0 t : Vec Ideal S1024x1024 .bf16) (ix2 p d)
      = (V c (Pipeline.arrRef spec4 0) : S4096x1024.Idx → Elt Ideal .bf16) (ix2 (⟨t.val * 1024 + p.val, by omega⟩ : Fin 4096) d) := by
  obtain ⟨e0, e1, -, -, -, -⟩ := idx_facts t
  unfold iblk4
  rw [View.read_apply]
  show (V c (Pipeline.arrRef spec4 0) : S4096x1024.Idx → Elt Ideal .bf16) (((cfg4.win 0).blk t).view.emb (ix2 p d)) = _
  refine congrArg _ ?_
  funext a
  apply Fin.ext
  match a with
  | ⟨0, _⟩ => show win4_0.index t (0 : Fin 2) * 1024 + 1 * p.val = t.val * 1024 + p.val; rw [e0]; omega
  | ⟨1, _⟩ => show win4_0.index t (1 : Fin 2) * 1024 + 1 * d.val = d.val; rw [e1]; omega

/-- The right operand's block at every point is its whole array. -/
theorem right_block (c : Dev nD) (t : Fin cfg4.N) (d q : Fin 1024) :
    (iblk4 V c 1 t : Vec Ideal S1024x1024 .bf16) (ix2 d q)
      = (V c (Pipeline.arrRef spec4 1) : S1024x1024.Idx → Elt Ideal .bf16) (ix2 d q) := by
  obtain ⟨-, -, e2, e3, -, -⟩ := idx_facts t
  unfold iblk4
  rw [View.read_apply]
  show (V c (Pipeline.arrRef spec4 1) : S1024x1024.Idx → Elt Ideal .bf16) (((cfg4.win 1).blk t).view.emb (ix2 d q)) = _
  refine congrArg _ ?_
  funext a
  apply Fin.ext
  match a with
  | ⟨0, _⟩ => show win4_1.index t (0 : Fin 2) * 1024 + 1 * d.val = d.val; rw [e2]; omega
  | ⟨1, _⟩ => show win4_1.index t (1 : Fin 2) * 1024 + 1 * q.val = q.val; rw [e3]; omega

/-- What point `t` writes back is block `t` of `G` of the two operand arrays as the region finds them. -/
theorem flushed_eq (c : Dev nD) (t : Fin cfg4.N) :
    (dat4 (F := Ideal) V c).flushed 2 t
      = ((cfg4.win 2).blk t).view.read (Elt Ideal) (G (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S1024x1024) hz]
  have hN : cfg4.N = 4 := N_4
  have ht : t.val < 4 := by have := t.isLt; omega
  obtain ⟨-, -, -, -, e4, e5⟩ := idx_facts t
  refine funext fun (j : S1024x1024.Idx) => ?_
  obtain ⟨p, q, rfl⟩ : ∃ (p q : Fin 1024), j = ix2 p q := ⟨j 0, j 1, eq_ix2 j⟩
  have hemb : ((cfg4.win 2).blk t).view.emb (ix2 p q) = ix2 (⟨t.val * 1024 + p.val, by omega⟩ : Fin 4096) q := by
    funext a
    apply Fin.ext
    match a with
    | ⟨0, _⟩ => show win4_2.index t (0 : Fin 2) * 1024 + 1 * p.val = t.val * 1024 + p.val; rw [e4]; omega
    | ⟨1, _⟩ => show win4_2.index t (1 : Fin 2) * 1024 + 1 * q.val = q.val; rw [e5]; omega
  show k4_pay1 (F := Ideal) (iblk4 V c 0 t) (iblk4 V c 1 t) (ix2 p q)
    = G (V c (Pipeline.arrRef spec4 0)) (V c (Pipeline.arrRef spec4 1)) (((cfg4.win 2).blk t).view.emb (ix2 p q))
  rw [hemb]
  exact block_entry _ _ _ _ t.val ht (fun p d => left_block V c t ht p d) (fun d q => right_block V c t d q) p q

/-- An index of the output array is in point `t`'s block iff each coordinate is in the block's range on its axis. -/
theorem mem_blk (t : Fin cfg4.N) (i : S4096x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v19).slice (win4_2.rect t)).set ↔ _
  rw [View.set_slice_whole, Rect.mem_set_unit]
  exact Iff.rfl

/-- Every row of the output array is in some point's block: row `r` in that of point `r / 1024`. -/
theorem cover (i : S4096x1024.Idx) :
    ∃ t : Fin cfg4.N, (cfg4.win 2).flush t = true ∧ i ∈ ((cfg4.win 2).blk t).view.set := by
  have hN : cfg4.N = 4 := N_4
  have hi0 : (i 0).val < 4096 := (i 0).isLt
  have hi1 : (i 1).val < 1024 := (i 1).isLt
  obtain ⟨t, ht⟩ : ∃ t : Fin cfg4.N, t.val = (i 0).val / 1024 := ⟨⟨(i 0).val / 1024, by omega⟩, rfl⟩
  obtain ⟨-, -, -, -, e4, e5⟩ := idx_facts t
  refine ⟨t, flush4_2 t, ?_⟩
  rw [mem_blk]
  intro a
  match a with
  | ⟨0, _⟩ => show win4_2.index t (0 : Fin 2) * 1024 ≤ (i 0).val ∧ (i 0).val < win4_2.index t (0 : Fin 2) * 1024 + 1024; rw [e4]; omega
  | ⟨1, _⟩ => show win4_2.index t (1 : Fin 2) * 1024 ≤ (i 1).val ∧ (i 1).val < win4_2.index t (1 : Fin 2) * 1024 + 1024; rw [e5]; omega

/-- The output array after the region's four points is `G` of the two operand arrays as the region finds them. -/
theorem final (c : Dev nD) :
    (dat4 (F := Ideal) V c).arrAt 2 cfg4.N = G (V c (Pipeline.arrRef spec4 0)) (V c (Pipeline.arrRef spec4 1)) :=
  (dat4 (F := Ideal) V c).arrAt_eq_of_cover 2 _ (fun t _ => flushed_eq V c t) cover

end Cert.KernelIdeal.MatRegion.R4

namespace Cert.KernelIdeal.MatRegion

open Cert.KernelIdeal Cert.KernelIdeal.Gen

/-- Region 4's output array after its four grid points, at row `r` and column `e`: the exact dot product of row `r` of
    the left operand's array with column `e` of the right operand's array, both as the region finds them. -/
theorem arr4 (V : (c : Dev nD) → (b : Ref sig .tc) → Buf (Elt Ideal) ((c : Thread nD τ).loc b)) (c : Dev nD)
    (r : Fin 4096) (e : Fin 1024) :
    (dat4 (F := Ideal) V c).arrAt 2 cfg4.N (ix2 r e)
      = ∑ d : Fin 1024, @HMul.hMul EReal EReal EReal instHMul
          (V c (Pipeline.arrRef spec4 0) (ix2 r d)) (V c (Pipeline.arrRef spec4 1) (ix2 d e)) :=
  congrFun (R4.final V c) (ix2 r e)

end Cert.KernelIdeal.MatRegion

end
-- ==== Proof.Spec.lean ====
/-
  Multi-head attention over the extended reals, as one function of the seven argument arrays.

  Shapes: activations are [2, 2048, 1024] (batch, position, feature), weights [1024, 1024]
  (output feature, input feature). A linear layer is y(b,s,e) = Σ_d x(b,s,d)·W(e,d). The 1024
  features are sixteen heads of sixty-four: feature e belongs to head e / 64 and is that head's
  coordinate e % 64. Inside head h, query position s scores key position k by the dot product of
  the two projected rows over the head's sixty-four features, scaled; a score row is turned into
  weights exp(score − row maximum), normalised by their sum, and the context is the weighted sum
  of the projected value rows. The output is a last linear layer of the context.

  Two arrangements of the same arithmetic are stated: one divides the dot product by √64 and the
  weight by the sum of the weights; the other multiplies by 1/8 and by the reciprocal of the sum.
  On the extended reals the first pair agrees everywhere; the second agrees wherever the sum of the
  weights is not zero, which holds when every score of the row is a real number (the largest weight
  is then exp 0 = 1).
-/
import Idealize.ShloMosaic.PureOps.Ideal
import Idealize.ShloMosaic.Lib.ValueIdx

noncomputable section

namespace Cert.Attn

open Idealize.ShloMosaic Idealize.ShloMosaic.ValueIdx

/-- An activation array: batch × position × feature. -/
abbrev Seq := (⟨3, ![2, 2048, 1024]⟩ : Shape).Idx → EReal
/-- A weight matrix: output feature × input feature. -/
abbrev Mat := (⟨2, ![1024, 1024]⟩ : Shape).Idx → EReal

/-- Feature number of coordinate `d` of head `h`. -/
def col (h : Fin 16) (d : Fin 64) : Fin 1024 := ⟨h.val * 64 + d.val, by omega⟩

/-- The head a feature belongs to, and its coordinate inside the head. -/
def headOf (e : Fin 1024) : Fin 16 := ⟨e.val / 64, by omega⟩
def coordOf (e : Fin 1024) : Fin 64 := ⟨e.val % 64, by omega⟩

theorem col_headOf_coordOf (e : Fin 1024) : col (headOf e) (coordOf e) = e :=
  Fin.ext (by show e.val / 64 * 64 + e.val % 64 = e.val; omega)

/-- A linear layer without bias: y = x Wᵀ, at batch `b`, position `s`, output feature `e`. -/
def proj (x : Seq) (W : Mat) (b : Fin 2) (s : Fin 2048) (e : Fin 1024) : EReal :=
  ∑ d : Fin 1024, x (ix3 b s d) * W (ix2 e d)

/-- The layer's result as an array. -/
def projArr (x : Seq) (W : Mat) : Seq :=
  fun i => proj x W ⟨(i 0).val, (i 0).isLt⟩ ⟨(i 1).val, (i 1).isLt⟩ ⟨(i 2).val, (i 2).isLt⟩

/-- Head `h`'s dot product of query row `s` with key row `k`. -/
def dotHead (Q K : Seq) (b : Fin 2) (h : Fin 16) (s k : Fin 2048) : EReal :=
  ∑ d : Fin 64, Q (ix3 b s (col h d)) * K (ix3 b k (col h d))

/-- The scale's two spellings: the binary word of 1/8, and the square root of the word of 64. -/
def eighth : EReal := Ideal.ofBits .f32 0x3E000000#32
def root64 : EReal := Ideal.sqrt (Ideal.ofBits .f32 0x42800000#32)
/-- The word of 1. -/
def one : EReal := Ideal.ofBits .f32 0x3F800000#32

/-- Scores, dividing by √64. -/
def scoreDiv (Q K : Seq) (b : Fin 2) (h : Fin 16) (s k : Fin 2048) : EReal :=
  Ideal.div (dotHead Q K b h s k) root64
/-- Scores, multiplying by 1/8. -/
def scoreMul (Q K : Seq) (b : Fin 2) (h : Fin 16) (s k : Fin 2048) : EReal :=
  dotHead Q K b h s k * eighth

/-- The maximum of a score row, from −∞. -/
def rowMax (f : Fin 2048 → EReal) : EReal := (Finset.univ : Finset (Fin 2048)).fold max ⊥ f
/-- The unnormalised weight of key `k` in a score row, and the row's sum of weights. -/
def wt (sc : Fin 2048 → EReal) (k : Fin 2048) : EReal := Ideal.exp (sc k - rowMax sc)
def den (sc : Fin 2048 → EReal) : EReal := ∑ k : Fin 2048, wt sc k

/-- Context of head `h`, coordinate `d`, at query `s`: weights divided by their sum. -/
def ctxDiv (Q K V : Seq) (b : Fin 2) (s : Fin 2048) (h : Fin 16) (d : Fin 64) : EReal :=
  ∑ k : Fin 2048, Ideal.div (wt (scoreDiv Q K b h s) k) (den (scoreDiv Q K b h s)) * V (ix3 b k (col h d))
/-- The same with weights multiplied by the reciprocal of their sum. -/
def ctxMul (Q K V : Seq) (b : Fin 2) (s : Fin 2048) (h : Fin 16) (d : Fin 64) : EReal :=
  ∑ k : Fin 2048, (wt (scoreMul Q K b h s) k * Ideal.div one (den (scoreMul Q K b h s))) * V (ix3 b k (col h d))

/-- The contexts of all heads side by side along the feature axis. -/
def ctxArrDiv (Q K V : Seq) : Seq :=
  fun i => ctxDiv Q K V ⟨(i 0).val, (i 0).isLt⟩ ⟨(i 1).val, (i 1).isLt⟩ (headOf ⟨(i 2).val, (i 2).isLt⟩) (coordOf ⟨(i 2).val, (i 2).isLt⟩)
def ctxArrMul (Q K V : Seq) : Seq :=
  fun i => ctxMul Q K V ⟨(i 0).val, (i 0).isLt⟩ ⟨(i 1).val, (i 1).isLt⟩ (headOf ⟨(i 2).val, (i 2).isLt⟩) (coordOf ⟨(i 2).val, (i 2).isLt⟩)

/-- Attention with the divisions. -/
def attnDiv (q k v : Seq) (Wq Wk Wv Wo : Mat) : Seq :=
  projArr (ctxArrDiv (projArr q Wq) (projArr k Wk) (projArr v Wv)) Wo
/-- Attention with the reciprocals. -/
def attnMul (q k v : Seq) (Wq Wk Wv Wo : Mat) : Seq :=
  projArr (ctxArrMul (projArr q Wq) (projArr k Wk) (projArr v Wv)) Wo

end Cert.Attn

end
-- ==== Proof.KernelValue.lean ====
/-
  The kernel's returned array is attention of the seven argument arrays, in the arrangement that
  multiplies by 1/8 and by the reciprocal of the sum of the weights.

  The returned array at (b, s, e) is the last region's output at row b·2048 + s, column e: the dot
  product of that row of the region's left operand with column e of its right operand. The left
  operand's row is the attention region's output at (b, s, ·), which at feature d is the context of
  head d / 64, coordinate d % 64, of the three projected arrays; the right operand at (d, e) is the
  last weight matrix at (e, d). So the entry is the last linear layer of the merged contexts.
-/
import proofs.«157128_j17892833755600_2_alg».proof.Proof.FoldLate
import proofs.«157128_j17892833755600_2_alg».proof.Proof.MatRegion4
import proofs.«157128_j17892833755600_2_alg».proof.Proof.Spec

noncomputable section

namespace Cert.KernelIdeal.Fold

open Cert.KernelIdeal Cert.KernelIdeal.Gen Idealize.ShloMosaic Idealize.ShloMosaic.TcCoe Idealize.SL.Sem
  Idealize.ShloMosaic.ValueIdx

/-- Attention with the reciprocals at (b, s, e): the last layer's sum over the features d of the
    context of head d / 64, coordinate d % 64, times the weight at (e, d). -/
theorem attnMul_apply (q k v : Cert.Attn.Seq) (Wq Wk Wv Wo : Cert.Attn.Mat) (b : Fin 2) (s : Fin 2048) (e : Fin 1024) :
    Cert.Attn.attnMul q k v Wq Wk Wv Wo (ix3 b s e)
      = ∑ d : Fin 1024, Cert.Attn.ctxMul (Cert.Attn.projArr q Wq) (Cert.Attn.projArr k Wk) (Cert.Attn.projArr v Wv)
          b s (Cert.Attn.headOf d) (Cert.Attn.coordOf d) * Wo (ix2 e d) := rfl

/-- The returned array, given what the attention region leaves (harr3) and that its three operands
    are the three projected arrays (hq, hk, hv). -/
theorem kernel_value_of_arrays
    (harr3 : ∀ (V : (c : Dev nD) → (b : Ref sig .tc) → Buf (Elt Ideal) ((c : Thread nD τ).loc b)) (c : Dev nD)
        (b : Fin 2) (s : Fin 2048) (e : Fin 1024),
      (dat3 (F := Ideal) V c).arrAt 3 cfg3.N (ix3 b s e)
        = Cert.Attn.ctxMul (V c (Pipeline.arrRef spec3 0)) (V c (Pipeline.arrRef spec3 1)) (V c (Pipeline.arrRef spec3 2))
            b s (Cert.Attn.headOf e) (Cert.Attn.coordOf e))
    (m : (ℓ : Loc nD τ sig) → Buf (Elt Ideal) ℓ) (ρ : Dev nD → PrngReg) (c : Dev nD)
    (hq : (V5 m ρ c (Pipeline.arrRef spec3 0) : Cert.Attn.Seq)
      = Cert.Attn.projArr (m ((c.tc : Thread nD τ).loc main_arg0)) (m ((c.tc : Thread nD τ).loc main_arg3)))
    (hk : (V5 m ρ c (Pipeline.arrRef spec3 1) : Cert.Attn.Seq)
      = Cert.Attn.projArr (m ((c.tc : Thread nD τ).loc main_arg1)) (m ((c.tc : Thread nD τ).loc main_arg4)))
    (hv : (V5 m ρ c (Pipeline.arrRef spec3 2) : Cert.Attn.Seq)
      = Cert.Attn.projArr (m ((c.tc : Thread nD τ).loc main_arg2)) (m ((c.tc : Thread nD τ).loc main_arg5))) :
    (W9 m ρ c (Proc.devRef .tc main_v20) : Cert.Attn.Seq)
      = Cert.Attn.attnMul (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext i
  obtain ⟨b, s, e, rfl⟩ : ∃ (b : Fin 2) (s : Fin 2048) (e : Fin 1024), i = ix3 b s e := ⟨i 0, i 1, i 2, eq_ix3 i⟩
  refine (out_from_region4 m ρ c b s e).trans ?_
  refine (MatRegion.arr4 (V7 m ρ) c (Cert.Attn.flat b s) e).trans ?_
  refine Eq.trans ?_ (attnMul_apply _ _ _ _ _ _ _ b s e).symm
  show (_ : EReal) = (_ : EReal)
  refine Finset.sum_congr rfl fun d _ => ?_
  rw [ctx_rows m ρ c b s d, woT m ρ c d e, harr3 (V5 m ρ) c b s d, hq, hk, hv]

end Cert.KernelIdeal.Fold

end
-- ==== Proof.FoldEarly.lean ====
/-
  The first three regions' input arrays, read at an index, in terms of the launch memory.

  Before the first region the host flattens each activation array [2, 2048, 1024] to [4096, 1024] (entry (b, s, d)
  goes to row b·2048 + s, column d) and transposes each weight matrix, then converts it to bf16, which over the
  extended reals changes nothing. A region writes only its own output array, so at the second and third regions'
  entries these buffers still hold what the host stretch left.
-/
import proofs.«157128_j17892833755600_2_alg».proof.Proof.Gen.KernelIdeal.Frame
import proofs.«157128_j17892833755600_2_alg».proof.Proof.FlatRow
import Idealize.ShloMosaic.Lib.Pipeline.Value
import Idealize.ShloMosaic.Lib.ValueIdx
import Idealize.ShloMosaic.Lib.StableHlo.Run

noncomputable section

namespace Cert.KernelIdeal.Fold

open Idealize.ShloMosaic Idealize.ShloMosaic.ValueIdx Idealize.ShloMosaic.TcCoe Idealize.SL.Sem
open Cert.KernelIdeal Cert.KernelIdeal.Gen

/-! ## The two layout operations read at an index -/

/-- A [2, 2048, 1024] array flattened to [4096, 1024] holds entry (b, s, d) at row b·2048 + s, column d. -/
theorem flatten_apply {α : Type} (x : (⟨3, ![2, 2048, 1024]⟩ : Shape).Idx → α)
    (h : (⟨3, ![2, 2048, 1024]⟩ : Shape).ShapeCasts ⟨2, ![4096, 1024]⟩) (b : Fin 2) (s : Fin 2048) (d : Fin 1024) :
    shapeCast ⟨2, ![4096, 1024]⟩ x h (ix2 (Cert.Attn.flat b s) d) = x (ix3 b s d) :=
  shapeCast_apply x h _ _ (by
    rw [Shape.rowMajor_val_three, Shape.rowMajor_val_two]
    show (b.val * 2048 + s.val) * 1024 + d.val = (Cert.Attn.flat b s).val * 1024 + d.val
    rw [Cert.Attn.flat_val])

/-- The transpose of a square matrix at (d, e) is the matrix at (e, d). -/
theorem transpose_sq_apply {α : Type} {n : ℕ} (x : (⟨2, ![n, n]⟩ : Shape).Idx → α)
    (h : (⟨2, ![n, n]⟩ : Shape).Transposes [1, 0] ⟨2, ![n, n]⟩) (d e : Fin n) :
    transpose ⟨2, ![n, n]⟩ [1, 0] x h (ix2 d e) = x (ix2 e d) :=
  transpose_apply _ x h _ _ fun a => match a with | ⟨0, _⟩ => rfl | ⟨1, _⟩ => rfl

variable (m : (ℓ : Loc nD τ sig) → Buf (Elt Ideal) ℓ) (ρ : Dev nD → PrngReg) (c : Dev nD)

/-! ## What the first host stretch leaves -/

theorem W1_v8 : (W1 m ρ c (Proc.devRef .tc main_v8) : S4096x1024.Idx → EReal)
    = shapeCast S4096x1024 (m ((c.tc : Thread nD τ).loc main_arg0) : S2x2048x1024.Idx → EReal) shapeCasts_S2x2048x1024_S4096x1024 := by
  show StableHlo.after hostOps0 _ (Proc.devRef .tc main_v8) = _
  after_results
  rfl

theorem q_rows (b : Fin 2) (s : Fin 2048) (d : Fin 1024) :
    V1 m ρ c (Pipeline.arrRef spec0 0) (ix2 (Cert.Attn.flat b s) d)
      = m ((c.tc : Thread nD τ).loc main_arg0) (ix3 b s d) := by
  show (W1 m ρ c (Proc.devRef .tc main_v8) : S4096x1024.Idx → EReal) (ix2 (Cert.Attn.flat b s) d) = _
  rw [W1_v8]
  exact flatten_apply _ _ b s d

theorem W1_v1 : (W1 m ρ c (Proc.devRef .tc main_v1) : S1024x1024.Idx → EReal)
    = (truncf (F := Ideal) .bf16 (transpose S1024x1024 [1, 0] (m ((c.tc : Thread nD τ).loc main_arg3) : FVec Ideal S1024x1024 .f32)
        transposes_S1024x1024_S1024x1024_1_0) bitsLt_bf16_f32 : FVec Ideal S1024x1024 .bf16) := by
  show StableHlo.after hostOps0 _ (Proc.devRef .tc main_v1) = _
  after_results

theorem wqT (d e : Fin 1024) :
    V1 m ρ c (Pipeline.arrRef spec0 1) (ix2 d e) = m ((c.tc : Thread nD τ).loc main_arg3) (ix2 e d) := by
  show (W1 m ρ c (Proc.devRef .tc main_v1) : S1024x1024.Idx → EReal) (ix2 d e) = _
  rw [W1_v1, truncf_apply]
  exact transpose_sq_apply _ _ d e

theorem W1_v9 : (W1 m ρ c (Proc.devRef .tc main_v9) : S4096x1024.Idx → EReal)
    = shapeCast S4096x1024 (m ((c.tc : Thread nD τ).loc main_arg1) : S2x2048x1024.Idx → EReal) shapeCasts_S2x2048x1024_S4096x1024 := by
  show StableHlo.after hostOps0 _ (Proc.devRef .tc main_v9) = _
  after_results
  rfl

theorem W1_v3 : (W1 m ρ c (Proc.devRef .tc main_v3) : S1024x1024.Idx → EReal)
    = (truncf (F := Ideal) .bf16 (transpose S1024x1024 [1, 0] (m ((c.tc : Thread nD τ).loc main_arg4) : FVec Ideal S1024x1024 .f32)
        transposes_S1024x1024_S1024x1024_1_0) bitsLt_bf16_f32 : FVec Ideal S1024x1024 .bf16) := by
  show StableHlo.after hostOps0 _ (Proc.devRef .tc main_v3) = _
  after_results

theorem k_rows (b : Fin 2) (s : Fin 2048) (d : Fin 1024) :
    V2 m ρ c (Pipeline.arrRef spec1 0) (ix2 (Cert.Attn.flat b s) d)
      = m ((c.tc : Thread nD τ).loc main_arg1) (ix3 b s d) := by
  show (W2 m ρ c (Proc.devRef .tc main_v9) : S4096x1024.Idx → EReal) (ix2 (Cert.Attn.flat b s) d) = _
  rw [W2_of_ne m ρ c main_v9 (by decide), W1_v9]
  exact flatten_apply _ _ b s d

theorem wkT (d e : Fin 1024) :
    V2 m ρ c (Pipeline.arrRef spec1 1) (ix2 d e) = m ((c.tc : Thread nD τ).loc main_arg4) (ix2 e d) := by
  show (W2 m ρ c (Proc.devRef .tc main_v3) : S1024x1024.Idx → EReal) (ix2 d e) = _
  rw [W2_of_ne m ρ c main_v3 (by decide), W1_v3, truncf_apply]
  exact transpose_sq_apply _ _ d e

theorem W1_v10 : (W1 m ρ c (Proc.devRef .tc main_v10) : S4096x1024.Idx → EReal)
    = shapeCast S4096x1024 (m ((c.tc : Thread nD τ).loc main_arg2) : S2x2048x1024.Idx → EReal) shapeCasts_S2x2048x1024_S4096x1024 := by
  show StableHlo.after hostOps0 _ (Proc.devRef .tc main_v10) = _
  after_results
  rfl

theorem W1_v5 : (W1 m ρ c (Proc.devRef .tc main_v5) : S1024x1024.Idx → EReal)
    = (truncf (F := Ideal) .bf16 (transpose S1024x1024 [1, 0] (m ((c.tc : Thread nD τ).loc main_arg5) : FVec Ideal S1024x1024 .f32)
        transposes_S1024x1024_S1024x1024_1_0) bitsLt_bf16_f32 : FVec Ideal S1024x1024 .bf16) := by
  show StableHlo.after hostOps0 _ (Proc.devRef .tc main_v5) = _
  after_results

theorem v_rows (b : Fin 2) (s : Fin 2048) (d : Fin 1024) :
    V3 m ρ c (Pipeline.arrRef spec2 0) (ix2 (Cert.Attn.flat b s) d)
      = m ((c.tc : Thread nD τ).loc main_arg2) (ix3 b s d) := by
  show (W3 m ρ c (Proc.devRef .tc main_v10) : S4096x1024.Idx → EReal) (ix2 (Cert.Attn.flat b s) d) = _
  rw [W3_of_ne m ρ c main_v10 (by decide), W2_of_ne m ρ c main_v10 (by decide), W1_v10]
  exact flatten_apply _ _ b s d

theorem wvT (d e : Fin 1024) :
    V3 m ρ c (Pipeline.arrRef spec2 1) (ix2 d e) = m ((c.tc : Thread nD τ).loc main_arg5) (ix2 e d) := by
  show (W3 m ρ c (Proc.devRef .tc main_v5) : S1024x1024.Idx → EReal) (ix2 d e) = _
  rw [W3_of_ne m ρ c main_v5 (by decide), W2_of_ne m ρ c main_v5 (by decide), W1_v5, truncf_apply]
  exact transpose_sq_apply _ _ d e

end Cert.KernelIdeal.Fold

end
-- ==== Proof.MatRegion0.lean ====
/- Region 0 of the kernel is a matrix product: a [4096,1024] left operand, taken 1024 rows at a time over a grid of
   four points, times a whole [1024,1024] right operand, written back 1024 rows at a time. This module reads the
   region's output array after its four points at an entry (r, e): at the ideal values it is the exact dot product of
   row r of the left operand's array with column e of the right operand's array, both as the region finds them. -/
import proofs.«157128_j17892833755600_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.MatRegion.R0

open Cert.KernelIdeal Cert.KernelIdeal.Gen

theorem hz : (![0, 0] : Fin 2 → Nat) = fun _ => 0 := funext fun a => by fin_cases a <;> rfl

/-! ## The product of two square blocks at an entry

The dot record contracts the left factor's axis 1 with the right factor's axis 0: the operand indices at output
entry `j` and contraction position `q` are `(j 0, q)` and `(q, j 1)`. -/

theorem lhs_coord0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_coord1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_coord0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_coord1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator, entry `(p, q)` of the product is row `p` of the left factor against column `q` of the
    right factor. -/
theorem matmul_ix2 {φ₁ φ₂ : FTy} (a : FVec Ideal S1024x1024 φ₁) (b : FVec Ideal S1024x1024 φ₂) (p q : Fin 1024) :
    FloatOps.matmul dot_S1024x1024_S1024x1024_S1024x1024_1_0_0_1_n_n none a b (constant S1024x1024 .f32 0x00000000#32) (ix2 p q)
      = ∑ d : Fin 1024, a (ix2 p d) * b (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun x => Fin.ext (by
    match x with
    | ⟨0, _⟩ => exact lhs_coord0 _ _
    | ⟨1, _⟩ => exact (lhs_coord1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun x => Fin.ext (by
    match x with
    | ⟨0, _⟩ => exact (rhs_coord0 _ _).trans hk
    | ⟨1, _⟩ => exact rhs_coord1 _ _)
  rw [el, er]

/-- The body's arithmetic at an entry of the output block: the narrowings are the identity on extended reals and the
    reshapes are onto the same shape, so the entry is the product's. -/
theorem pay_apply (x0 : Vec Ideal S1024x1024 .f32) (x1 : Vec Ideal S1024x1024 .bf16) (p q : Fin 1024) :
    k0_pay1 (F := Ideal) x0 x1 (ix2 p q) = ∑ d : Fin 1024, x0 (ix2 p d) * x1 (ix2 d q) := by
  unfold k0_pay1
  simp only [shapeCast_self]
  exact matmul_ix2 (φ₁ := .bf16) (φ₂ := .bf16) (truncf .bf16 x0 bitsLt_bf16_f32) x1 p q

/-! ## The whole array -/

/-- Rows of `A` against columns of `B`: entry `(r, e)` is `∑ d, A (r, d) * B (d, e)`. -/
def G (A : S4096x1024.Idx → Elt Ideal .f32) (B : S1024x1024.Idx → Elt Ideal .bf16) : S4096x1024.Idx → Elt Ideal .bf16 :=
  fun i => ∑ d : Fin 1024, A (ix2 (i 0) d) * B (ix2 d (i 1))

/-- One grid point's output block: when the left block is rows `1024 n … 1024 n + 1023` of `A` and the right block is
    `B`, entry `(p, q)` of the body's result is entry `(1024 n + p, q)` of `G A B`. -/
theorem block_entry (A : S4096x1024.Idx → Elt Ideal .f32) (B : S1024x1024.Idx → Elt Ideal .bf16)
    (x0 : Vec Ideal S1024x1024 .f32) (x1 : Vec Ideal S1024x1024 .bf16) (n : Nat) (hn : n < 4)
    (h0 : ∀ p d : Fin 1024, x0 (ix2 p d) = A (ix2 (⟨n * 1024 + p.val, by omega⟩ : Fin 4096) d))
    (h1 : ∀ d q : Fin 1024, x1 (ix2 d q) = B (ix2 d q)) (p q : Fin 1024) :
    k0_pay1 (F := Ideal) x0 x1 (ix2 p q) = G A B (ix2 (⟨n * 1024 + p.val, by omega⟩ : Fin 4096) q) := by
  rw [pay_apply]
  unfold G
  exact Finset.sum_congr rfl fun d _ => by rw [h0, h1]

variable (V : (c : Dev nD) → (b : Ref sig .tc) → Buf (Elt Ideal) ((c : Thread nD τ).loc b))

/-- The printed index maps over the four grid points: the left operand's and the output's row-block index is the point,
    their column-block index is 0, and the right operand's block index is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `1024 t … 1024 t + 1023` of its array. -/
theorem left_block (c : Dev nD) (t : Fin cfg0.N) (ht : t.val < 4) (p d : Fin 1024) :
    (iblk0 V c 0 t : Vec Ideal S1024x1024 .f32) (ix2 p d)
      = (V c (Pipeline.arrRef spec0 0) : S4096x1024.Idx → Elt Ideal .f32) (ix2 (⟨t.val * 1024 + p.val, by omega⟩ : Fin 4096) d) := by
  obtain ⟨e0, e1, -, -, -, -⟩ := idx_facts t
  unfold iblk0
  rw [View.read_apply]
  show (V c (Pipeline.arrRef spec0 0) : S4096x1024.Idx → Elt Ideal .f32) (((cfg0.win 0).blk t).view.emb (ix2 p d)) = _
  refine congrArg _ ?_
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * d.val = d.val; rw [e1]; omega

/-- The right operand's block at every point is its whole array. -/
theorem right_block (c : Dev nD) (t : Fin cfg0.N) (d q : Fin 1024) :
    (iblk0 V c 1 t : Vec Ideal S1024x1024 .bf16) (ix2 d q)
      = (V c (Pipeline.arrRef spec0 1) : S1024x1024.Idx → Elt Ideal .bf16) (ix2 d q) := by
  obtain ⟨-, -, e2, e3, -, -⟩ := idx_facts t
  unfold iblk0
  rw [View.read_apply]
  show (V c (Pipeline.arrRef spec0 1) : S1024x1024.Idx → Elt Ideal .bf16) (((cfg0.win 1).blk t).view.emb (ix2 d q)) = _
  refine congrArg _ ?_
  funext a
  apply Fin.ext
  match a with
  | ⟨0, _⟩ => show win0_1.index t (0 : Fin 2) * 1024 + 1 * d.val = d.val; rw [e2]; omega
  | ⟨1, _⟩ => show win0_1.index t (1 : Fin 2) * 1024 + 1 * q.val = q.val; rw [e3]; omega

/-- What point `t` writes back is block `t` of `G` of the two operand arrays as the region finds them. -/
theorem flushed_eq (c : Dev nD) (t : Fin cfg0.N) :
    (dat0 (F := Ideal) V c).flushed 2 t
      = ((cfg0.win 2).blk t).view.read (Elt Ideal) (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S1024x1024) hz]
  have hN : cfg0.N = 4 := N_0
  have ht : t.val < 4 := by have := t.isLt; omega
  obtain ⟨-, -, -, -, e4, e5⟩ := idx_facts t
  refine funext fun (j : S1024x1024.Idx) => ?_
  obtain ⟨p, q, rfl⟩ : ∃ (p q : Fin 1024), j = ix2 p q := ⟨j 0, j 1, eq_ix2 j⟩
  have hemb : ((cfg0.win 2).blk t).view.emb (ix2 p q) = ix2 (⟨t.val * 1024 + p.val, by omega⟩ : Fin 4096) q := by
    funext a
    apply Fin.ext
    match a with
    | ⟨0, _⟩ => show win0_2.index t (0 : Fin 2) * 1024 + 1 * p.val = t.val * 1024 + p.val; rw [e4]; omega
    | ⟨1, _⟩ => show win0_2.index t (1 : Fin 2) * 1024 + 1 * q.val = q.val; rw [e5]; omega
  show k0_pay1 (F := Ideal) (iblk0 V c 0 t) (iblk0 V c 1 t) (ix2 p q)
    = G (V c (Pipeline.arrRef spec0 0)) (V c (Pipeline.arrRef spec0 1)) (((cfg0.win 2).blk t).view.emb (ix2 p q))
  rw [hemb]
  exact block_entry _ _ _ _ t.val ht (fun p d => left_block V c t ht p d) (fun d q => right_block V c t d q) p q

/-- An index of the output array is in point `t`'s block iff each coordinate is in the block's range on its axis. -/
theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v11).slice (win0_2.rect t)).set ↔ _
  rw [View.set_slice_whole, Rect.mem_set_unit]
  exact Iff.rfl

/-- Every row of the output array is in some point's block: row `r` in that of point `r / 1024`. -/
theorem cover (i : S4096x1024.Idx) :
    ∃ t : Fin cfg0.N, (cfg0.win 2).flush t = true ∧ i ∈ ((cfg0.win 2).blk t).view.set := by
  have hN : cfg0.N = 4 := N_0
  have hi0 : (i 0).val < 4096 := (i 0).isLt
  have hi1 : (i 1).val < 1024 := (i 1).isLt
  obtain ⟨t, ht⟩ : ∃ t : Fin cfg0.N, t.val = (i 0).val / 1024 := ⟨⟨(i 0).val / 1024, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 1024 ≤ (i 1).val ∧ (i 1).val < win0_2.index t (1 : Fin 2) * 1024 + 1024; rw [e5]; omega

/-- The output array after the region's four points is `G` of the two operand arrays as the region finds them. -/
theorem final (c : Dev nD) :
    (dat0 (F := Ideal) V c).arrAt 2 cfg0.N = G (V c (Pipeline.arrRef spec0 0)) (V c (Pipeline.arrRef spec0 1)) :=
  (dat0 (F := Ideal) V c).arrAt_eq_of_cover 2 _ (fun t _ => flushed_eq V c t) cover

end Cert.KernelIdeal.MatRegion.R0

namespace Cert.KernelIdeal.MatRegion

open Cert.KernelIdeal Cert.KernelIdeal.Gen

/-- Region 0's output array after its four grid points, at row `r` and column `e`: the exact dot product of row `r` of
    the left operand's array with column `e` of the right operand's array, both as the region finds them. -/
theorem arr0 (V : (c : Dev nD) → (b : Ref sig .tc) → Buf (Elt Ideal) ((c : Thread nD τ).loc b)) (c : Dev nD)
    (r : Fin 4096) (e : Fin 1024) :
    (dat0 (F := Ideal) V c).arrAt 2 cfg0.N (ix2 r e)
      = ∑ d : Fin 1024, @HMul.hMul EReal EReal EReal instHMul
          (V c (Pipeline.arrRef spec0 0) (ix2 r d)) (V c (Pipeline.arrRef spec0 1) (ix2 d e)) :=
  congrFun (R0.final V c) (ix2 r e)

end Cert.KernelIdeal.MatRegion

end
-- ==== Proof.MatRegion1.lean ====
/- Region 1 of the kernel is a matrix product: a [4096,1024] left operand, taken 1024 rows at a time over a grid of
   four points, times a whole [1024,1024] right operand, written back 1024 rows at a time. This module reads the
   region's output array after its four points at an entry (r, e): at the ideal values it is the exact dot product of
   row r of the left operand's array with column e of the right operand's array, both as the region finds them. -/
import proofs.«157128_j17892833755600_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.MatRegion.R1

open Cert.KernelIdeal Cert.KernelIdeal.Gen

theorem hz : (![0, 0] : Fin 2 → Nat) = fun _ => 0 := funext fun a => by fin_cases a <;> rfl

/-! ## The product of two square blocks at an entry

The dot record contracts the left factor's axis 1 with the right factor's axis 0: the operand indices at output
entry `j` and contraction position `q` are `(j 0, q)` and `(q, j 1)`. -/

theorem lhs_coord0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_coord1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_coord0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_coord1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator, entry `(p, q)` of the product is row `p` of the left factor against column `q` of the
    right factor. -/
theorem matmul_ix2 {φ₁ φ₂ : FTy} (a : FVec Ideal S1024x1024 φ₁) (b : FVec Ideal S1024x1024 φ₂) (p q : Fin 1024) :
    FloatOps.matmul dot_S1024x1024_S1024x1024_S1024x1024_1_0_0_1_n_n none a b (constant S1024x1024 .f32 0x00000000#32) (ix2 p q)
      = ∑ d : Fin 1024, a (ix2 p d) * b (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun x => Fin.ext (by
    match x with
    | ⟨0, _⟩ => exact lhs_coord0 _ _
    | ⟨1, _⟩ => exact (lhs_coord1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun x => Fin.ext (by
    match x with
    | ⟨0, _⟩ => exact (rhs_coord0 _ _).trans hk
    | ⟨1, _⟩ => exact rhs_coord1 _ _)
  rw [el, er]

/-- The body's arithmetic at an entry of the output block: the narrowings are the identity on extended reals and the
    reshapes are onto the same shape, so the entry is the product's. -/
theorem pay_apply (x0 : Vec Ideal S1024x1024 .f32) (x1 : Vec Ideal S1024x1024 .bf16) (p q : Fin 1024) :
    k1_pay1 (F := Ideal) x0 x1 (ix2 p q) = ∑ d : Fin 1024, x0 (ix2 p d) * x1 (ix2 d q) := by
  unfold k1_pay1
  simp only [shapeCast_self]
  exact matmul_ix2 (φ₁ := .bf16) (φ₂ := .bf16) (truncf .bf16 x0 bitsLt_bf16_f32) x1 p q

/-! ## The whole array -/

/-- Rows of `A` against columns of `B`: entry `(r, e)` is `∑ d, A (r, d) * B (d, e)`. -/
def G (A : S4096x1024.Idx → Elt Ideal .f32) (B : S1024x1024.Idx → Elt Ideal .bf16) : S4096x1024.Idx → Elt Ideal .bf16 :=
  fun i => ∑ d : Fin 1024, A (ix2 (i 0) d) * B (ix2 d (i 1))

/-- One grid point's output block: when the left block is rows `1024 n … 1024 n + 1023` of `A` and the right block is
    `B`, entry `(p, q)` of the body's result is entry `(1024 n + p, q)` of `G A B`. -/
theorem block_entry (A : S4096x1024.Idx → Elt Ideal .f32) (B : S1024x1024.Idx → Elt Ideal .bf16)
    (x0 : Vec Ideal S1024x1024 .f32) (x1 : Vec Ideal S1024x1024 .bf16) (n : Nat) (hn : n < 4)
    (h0 : ∀ p d : Fin 1024, x0 (ix2 p d) = A (ix2 (⟨n * 1024 + p.val, by omega⟩ : Fin 4096) d))
    (h1 : ∀ d q : Fin 1024, x1 (ix2 d q) = B (ix2 d q)) (p q : Fin 1024) :
    k1_pay1 (F := Ideal) x0 x1 (ix2 p q) = G A B (ix2 (⟨n * 1024 + p.val, by omega⟩ : Fin 4096) q) := by
  rw [pay_apply]
  unfold G
  exact Finset.sum_congr rfl fun d _ => by rw [h0, h1]

variable (V : (c : Dev nD) → (b : Ref sig .tc) → Buf (Elt Ideal) ((c : Thread nD τ).loc b))

/-- The printed index maps over the four grid points: the left operand's and the output's row-block index is the point,
    their column-block index is 0, and the right operand's block index is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `1024 t … 1024 t + 1023` of its array. -/
theorem left_block (c : Dev nD) (t : Fin cfg1.N) (ht : t.val < 4) (p d : Fin 1024) :
    (iblk1 V c 0 t : Vec Ideal S1024x1024 .f32) (ix2 p d)
      = (V c (Pipeline.arrRef spec1 0) : S4096x1024.Idx → Elt Ideal .f32) (ix2 (⟨t.val * 1024 + p.val, by omega⟩ : Fin 4096) d) := by
  obtain ⟨e0, e1, -, -, -, -⟩ := idx_facts t
  unfold iblk1
  rw [View.read_apply]
  show (V c (Pipeline.arrRef spec1 0) : S4096x1024.Idx → Elt Ideal .f32) (((cfg1.win 0).blk t).view.emb (ix2 p d)) = _
  refine congrArg _ ?_
  funext a
  apply Fin.ext
  match a with
  | ⟨0, _⟩ => show win1_0.index t (0 : Fin 2) * 1024 + 1 * p.val = t.val * 1024 + p.val; rw [e0]; omega
  | ⟨1, _⟩ => show win1_0.index t (1 : Fin 2) * 1024 + 1 * d.val = d.val; rw [e1]; omega

/-- The right operand's block at every point is its whole array. -/
theorem right_block (c : Dev nD) (t : Fin cfg1.N) (d q : Fin 1024) :
    (iblk1 V c 1 t : Vec Ideal S1024x1024 .bf16) (ix2 d q)
      = (V c (Pipeline.arrRef spec1 1) : S1024x1024.Idx → Elt Ideal .bf16) (ix2 d q) := by
  obtain ⟨-, -, e2, e3, -, -⟩ := idx_facts t
  unfold iblk1
  rw [View.read_apply]
  show (V c (Pipeline.arrRef spec1 1) : S1024x1024.Idx → Elt Ideal .bf16) (((cfg1.win 1).blk t).view.emb (ix2 d q)) = _
  refine congrArg _ ?_
  funext a
  apply Fin.ext
  match a with
  | ⟨0, _⟩ => show win1_1.index t (0 : Fin 2) * 1024 + 1 * d.val = d.val; rw [e2]; omega
  | ⟨1, _⟩ => show win1_1.index t (1 : Fin 2) * 1024 + 1 * q.val = q.val; rw [e3]; omega

/-- What point `t` writes back is block `t` of `G` of the two operand arrays as the region finds them. -/
theorem flushed_eq (c : Dev nD) (t : Fin cfg1.N) :
    (dat1 (F := Ideal) V c).flushed 2 t
      = ((cfg1.win 2).blk t).view.read (Elt Ideal) (G (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S1024x1024) hz]
  have hN : cfg1.N = 4 := N_1
  have ht : t.val < 4 := by have := t.isLt; omega
  obtain ⟨-, -, -, -, e4, e5⟩ := idx_facts t
  refine funext fun (j : S1024x1024.Idx) => ?_
  obtain ⟨p, q, rfl⟩ : ∃ (p q : Fin 1024), j = ix2 p q := ⟨j 0, j 1, eq_ix2 j⟩
  have hemb : ((cfg1.win 2).blk t).view.emb (ix2 p q) = ix2 (⟨t.val * 1024 + p.val, by omega⟩ : Fin 4096) q := by
    funext a
    apply Fin.ext
    match a with
    | ⟨0, _⟩ => show win1_2.index t (0 : Fin 2) * 1024 + 1 * p.val = t.val * 1024 + p.val; rw [e4]; omega
    | ⟨1, _⟩ => show win1_2.index t (1 : Fin 2) * 1024 + 1 * q.val = q.val; rw [e5]; omega
  show k1_pay1 (F := Ideal) (iblk1 V c 0 t) (iblk1 V c 1 t) (ix2 p q)
    = G (V c (Pipeline.arrRef spec1 0)) (V c (Pipeline.arrRef spec1 1)) (((cfg1.win 2).blk t).view.emb (ix2 p q))
  rw [hemb]
  exact block_entry _ _ _ _ t.val ht (fun p d => left_block V c t ht p d) (fun d q => right_block V c t d q) p q

/-- An index of the output array is in point `t`'s block iff each coordinate is in the block's range on its axis. -/
theorem mem_blk (t : Fin cfg1.N) (i : S4096x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v12).slice (win1_2.rect t)).set ↔ _
  rw [View.set_slice_whole, Rect.mem_set_unit]
  exact Iff.rfl

/-- Every row of the output array is in some point's block: row `r` in that of point `r / 1024`. -/
theorem cover (i : S4096x1024.Idx) :
    ∃ t : Fin cfg1.N, (cfg1.win 2).flush t = true ∧ i ∈ ((cfg1.win 2).blk t).view.set := by
  have hN : cfg1.N = 4 := N_1
  have hi0 : (i 0).val < 4096 := (i 0).isLt
  have hi1 : (i 1).val < 1024 := (i 1).isLt
  obtain ⟨t, ht⟩ : ∃ t : Fin cfg1.N, t.val = (i 0).val / 1024 := ⟨⟨(i 0).val / 1024, by omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; rw [e4]; omega
  | ⟨1, _⟩ => show win1_2.index t (1 : Fin 2) * 1024 ≤ (i 1).val ∧ (i 1).val < win1_2.index t (1 : Fin 2) * 1024 + 1024; rw [e5]; omega

/-- The output array after the region's four points is `G` of the two operand arrays as the region finds them. -/
theorem final (c : Dev nD) :
    (dat1 (F := Ideal) V c).arrAt 2 cfg1.N = G (V c (Pipeline.arrRef spec1 0)) (V c (Pipeline.arrRef spec1 1)) :=
  (dat1 (F := Ideal) V c).arrAt_eq_of_cover 2 _ (fun t _ => flushed_eq V c t) cover

end Cert.KernelIdeal.MatRegion.R1

namespace Cert.KernelIdeal.MatRegion

open Cert.KernelIdeal Cert.KernelIdeal.Gen

/-- Region 1's output array after its four grid points, at row `r` and column `e`: the exact dot product of row `r` of
    the left operand's array with column `e` of the right operand's array, both as the region finds them. -/
theorem arr1 (V : (c : Dev nD) → (b : Ref sig .tc) → Buf (Elt Ideal) ((c : Thread nD τ).loc b)) (c : Dev nD)
    (r : Fin 4096) (e : Fin 1024) :
    (dat1 (F := Ideal) V c).arrAt 2 cfg1.N (ix2 r e)
      = ∑ d : Fin 1024, @HMul.hMul EReal EReal EReal instHMul
          (V c (Pipeline.arrRef spec1 0) (ix2 r d)) (V c (Pipeline.arrRef spec1 1) (ix2 d e)) :=
  congrFun (R1.final V c) (ix2 r e)

end Cert.KernelIdeal.MatRegion

end
-- ==== Proof.MatRegion2.lean ====
/- Region 2 of the kernel is a matrix product: a [4096,1024] left operand, taken 1024 rows at a time over a grid of
   four points, times a whole [1024,1024] right operand, written back 1024 rows at a time. This module reads the
   region's output array after its four points at an entry (r, e): at the ideal values it is the exact dot product of
   row r of the left operand's array with column e of the right operand's array, both as the region finds them. -/
import proofs.«157128_j17892833755600_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.MatRegion.R2

open Cert.KernelIdeal Cert.KernelIdeal.Gen

theorem hz : (![0, 0] : Fin 2 → Nat) = fun _ => 0 := funext fun a => by fin_cases a <;> rfl

/-! ## The product of two square blocks at an entry

The dot record contracts the left factor's axis 1 with the right factor's axis 0: the operand indices at output
entry `j` and contraction position `q` are `(j 0, q)` and `(q, j 1)`. -/

theorem lhs_coord0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_coord1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_coord0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_coord1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator, entry `(p, q)` of the product is row `p` of the left factor against column `q` of the
    right factor. -/
theorem matmul_ix2 {φ₁ φ₂ : FTy} (a : FVec Ideal S1024x1024 φ₁) (b : FVec Ideal S1024x1024 φ₂) (p q : Fin 1024) :
    FloatOps.matmul dot_S1024x1024_S1024x1024_S1024x1024_1_0_0_1_n_n none a b (constant S1024x1024 .f32 0x00000000#32) (ix2 p q)
      = ∑ d : Fin 1024, a (ix2 p d) * b (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun x => Fin.ext (by
    match x with
    | ⟨0, _⟩ => exact lhs_coord0 _ _
    | ⟨1, _⟩ => exact (lhs_coord1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun x => Fin.ext (by
    match x with
    | ⟨0, _⟩ => exact (rhs_coord0 _ _).trans hk
    | ⟨1, _⟩ => exact rhs_coord1 _ _)
  rw [el, er]

/-- The body's arithmetic at an entry of the output block: the narrowings are the identity on extended reals and the
    reshapes are onto the same shape, so the entry is the product's. -/
theorem pay_apply (x0 : Vec Ideal S1024x1024 .f32) (x1 : Vec Ideal S1024x1024 .bf16) (p q : Fin 1024) :
    k2_pay1 (F := Ideal) x0 x1 (ix2 p q) = ∑ d : Fin 1024, x0 (ix2 p d) * x1 (ix2 d q) := by
  unfold k2_pay1
  simp only [shapeCast_self]
  exact matmul_ix2 (φ₁ := .bf16) (φ₂ := .bf16) (truncf .bf16 x0 bitsLt_bf16_f32) x1 p q

/-! ## The whole array -/

/-- Rows of `A` against columns of `B`: entry `(r, e)` is `∑ d, A (r, d) * B (d, e)`. -/
def G (A : S4096x1024.Idx → Elt Ideal .f32) (B : S1024x1024.Idx → Elt Ideal .bf16) : S4096x1024.Idx → Elt Ideal .bf16 :=
  fun i => ∑ d : Fin 1024, A (ix2 (i 0) d) * B (ix2 d (i 1))

/-- One grid point's output block: when the left block is rows `1024 n … 1024 n + 1023` of `A` and the right block is
    `B`, entry `(p, q)` of the body's result is entry `(1024 n + p, q)` of `G A B`. -/
theorem block_entry (A : S4096x1024.Idx → Elt Ideal .f32) (B : S1024x1024.Idx → Elt Ideal .bf16)
    (x0 : Vec Ideal S1024x1024 .f32) (x1 : Vec Ideal S1024x1024 .bf16) (n : Nat) (hn : n < 4)
    (h0 : ∀ p d : Fin 1024, x0 (ix2 p d) = A (ix2 (⟨n * 1024 + p.val, by omega⟩ : Fin 4096) d))
    (h1 : ∀ d q : Fin 1024, x1 (ix2 d q) = B (ix2 d q)) (p q : Fin 1024) :
    k2_pay1 (F := Ideal) x0 x1 (ix2 p q) = G A B (ix2 (⟨n * 1024 + p.val, by omega⟩ : Fin 4096) q) := by
  rw [pay_apply]
  unfold G
  exact Finset.sum_congr rfl fun d _ => by rw [h0, h1]

variable (V : (c : Dev nD) → (b : Ref sig .tc) → Buf (Elt Ideal) ((c : Thread nD τ).loc b))

/-- The printed index maps over the four grid points: the left operand's and the output's row-block index is the point,
    their column-block index is 0, and the right operand's block index is (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `1024 t … 1024 t + 1023` of its array. -/
theorem left_block (c : Dev nD) (t : Fin cfg2.N) (ht : t.val < 4) (p d : Fin 1024) :
    (iblk2 V c 0 t : Vec Ideal S1024x1024 .f32) (ix2 p d)
      = (V c (Pipeline.arrRef spec2 0) : S4096x1024.Idx → Elt Ideal .f32) (ix2 (⟨t.val * 1024 + p.val, by omega⟩ : Fin 4096) d) := by
  obtain ⟨e0, e1, -, -, -, -⟩ := idx_facts t
  unfold iblk2
  rw [View.read_apply]
  show (V c (Pipeline.arrRef spec2 0) : S4096x1024.Idx → Elt Ideal .f32) (((cfg2.win 0).blk t).view.emb (ix2 p d)) = _
  refine congrArg _ ?_
  funext a
  apply Fin.ext
  match a with
  | ⟨0, _⟩ => show win2_0.index t (0 : Fin 2) * 1024 + 1 * p.val = t.val * 1024 + p.val; rw [e0]; omega
  | ⟨1, _⟩ => show win2_0.index t (1 : Fin 2) * 1024 + 1 * d.val = d.val; rw [e1]; omega

/-- The right operand's block at every point is its whole array. -/
theorem right_block (c : Dev nD) (t : Fin cfg2.N) (d q : Fin 1024) :
    (iblk2 V c 1 t : Vec Ideal S1024x1024 .bf16) (ix2 d q)
      = (V c (Pipeline.arrRef spec2 1) : S1024x1024.Idx → Elt Ideal .bf16) (ix2 d q) := by
  obtain ⟨-, -, e2, e3, -, -⟩ := idx_facts t
  unfold iblk2
  rw [View.read_apply]
  show (V c (Pipeline.arrRef spec2 1) : S1024x1024.Idx → Elt Ideal .bf16) (((cfg2.win 1).blk t).view.emb (ix2 d q)) = _
  refine congrArg _ ?_
  funext a
  apply Fin.ext
  match a with
  | ⟨0, _⟩ => show win2_1.index t (0 : Fin 2) * 1024 + 1 * d.val = d.val; rw [e2]; omega
  | ⟨1, _⟩ => show win2_1.index t (1 : Fin 2) * 1024 + 1 * q.val = q.val; rw [e3]; omega

/-- What point `t` writes back is block `t` of `G` of the two operand arrays as the region finds them. -/
theorem flushed_eq (c : Dev nD) (t : Fin cfg2.N) :
    (dat2 (F := Ideal) V c).flushed 2 t
      = ((cfg2.win 2).blk t).view.read (Elt Ideal) (G (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S1024x1024) hz]
  have hN : cfg2.N = 4 := N_2
  have ht : t.val < 4 := by have := t.isLt; omega
  obtain ⟨-, -, -, -, e4, e5⟩ := idx_facts t
  refine funext fun (j : S1024x1024.Idx) => ?_
  obtain ⟨p, q, rfl⟩ : ∃ (p q : Fin 1024), j = ix2 p q := ⟨j 0, j 1, eq_ix2 j⟩
  have hemb : ((cfg2.win 2).blk t).view.emb (ix2 p q) = ix2 (⟨t.val * 1024 + p.val, by omega⟩ : Fin 4096) q := by
    funext a
    apply Fin.ext
    match a with
    | ⟨0, _⟩ => show win2_2.index t (0 : Fin 2) * 1024 + 1 * p.val = t.val * 1024 + p.val; rw [e4]; omega
    | ⟨1, _⟩ => show win2_2.index t (1 : Fin 2) * 1024 + 1 * q.val = q.val; rw [e5]; omega
  show k2_pay1 (F := Ideal) (iblk2 V c 0 t) (iblk2 V c 1 t) (ix2 p q)
    = G (V c (Pipeline.arrRef spec2 0)) (V c (Pipeline.arrRef spec2 1)) (((cfg2.win 2).blk t).view.emb (ix2 p q))
  rw [hemb]
  exact block_entry _ _ _ _ t.val ht (fun p d => left_block V c t ht p d) (fun d q => right_block V c t d q) p q

/-- An index of the output array is in point `t`'s block iff each coordinate is in the block's range on its axis. -/
theorem mem_blk (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v13).slice (win2_2.rect t)).set ↔ _
  rw [View.set_slice_whole, Rect.mem_set_unit]
  exact Iff.rfl

/-- Every row of the output array is in some point's block: row `r` in that of point `r / 1024`. -/
theorem cover (i : S4096x1024.Idx) :
    ∃ t : Fin cfg2.N, (cfg2.win 2).flush t = true ∧ i ∈ ((cfg2.win 2).blk t).view.set := by
  have hN : cfg2.N = 4 := N_2
  have hi0 : (i 0).val < 4096 := (i 0).isLt
  have hi1 : (i 1).val < 1024 := (i 1).isLt
  obtain ⟨t, ht⟩ : ∃ t : Fin cfg2.N, t.val = (i 0).val / 1024 := ⟨⟨(i 0).val / 1024, by omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; rw [e4]; omega
  | ⟨1, _⟩ => show win2_2.index t (1 : Fin 2) * 1024 ≤ (i 1).val ∧ (i 1).val < win2_2.index t (1 : Fin 2) * 1024 + 1024; rw [e5]; omega

/-- The output array after the region's four points is `G` of the two operand arrays as the region finds them. -/
theorem final (c : Dev nD) :
    (dat2 (F := Ideal) V c).arrAt 2 cfg2.N = G (V c (Pipeline.arrRef spec2 0)) (V c (Pipeline.arrRef spec2 1)) :=
  (dat2 (F := Ideal) V c).arrAt_eq_of_cover 2 _ (fun t _ => flushed_eq V c t) cover

end Cert.KernelIdeal.MatRegion.R2

namespace Cert.KernelIdeal.MatRegion

open Cert.KernelIdeal Cert.KernelIdeal.Gen

/-- Region 2's output array after its four grid points, at row `r` and column `e`: the exact dot product of row `r` of
    the left operand's array with column `e` of the right operand's array, both as the region finds them. -/
theorem arr2 (V : (c : Dev nD) → (b : Ref sig .tc) → Buf (Elt Ideal) ((c : Thread nD τ).loc b)) (c : Dev nD)
    (r : Fin 4096) (e : Fin 1024) :
    (dat2 (F := Ideal) V c).arrAt 2 cfg2.N (ix2 r e)
      = ∑ d : Fin 1024, @HMul.hMul EReal EReal EReal instHMul
          (V c (Pipeline.arrRef spec2 0) (ix2 r d)) (V c (Pipeline.arrRef spec2 1) (ix2 d e)) :=
  congrFun (R2.final V c) (ix2 r e)

end Cert.KernelIdeal.MatRegion

end
-- ==== Proof.ProjectedArrays.lean ====
/-
  The attention region's three input arrays are the specification's projected arrays.

  Each is the output of a matrix-product region, regrouped from rows to (batch, position): entry (b, s, e) is the
  dot product of row b·2048 + s of the flattened activation array with column e of the transposed weight matrix,
  that is Σ_d x(b, s, d) · W(e, d).
-/
import proofs.«157128_j17892833755600_2_alg».proof.Proof.FoldEarly
import proofs.«157128_j17892833755600_2_alg».proof.Proof.FoldLate
import proofs.«157128_j17892833755600_2_alg».proof.Proof.MatRegion0
import proofs.«157128_j17892833755600_2_alg».proof.Proof.MatRegion1
import proofs.«157128_j17892833755600_2_alg».proof.Proof.MatRegion2
import proofs.«157128_j17892833755600_2_alg».proof.Proof.Spec

noncomputable section

namespace Cert.KernelIdeal.Fold

open Idealize.ShloMosaic Idealize.ShloMosaic.ValueIdx Idealize.ShloMosaic.TcCoe Idealize.SL.Sem
open Cert.KernelIdeal Cert.KernelIdeal.Gen

/-- The linear layer's array at (b, s, e). -/
theorem projArr_ix3 (x : Cert.Attn.Seq) (W : Cert.Attn.Mat) (b : Fin 2) (s : Fin 2048) (e : Fin 1024) :
    Cert.Attn.projArr x W (ix3 b s e) = ∑ d : Fin 1024, x (ix3 b s d) * W (ix2 e d) := rfl

variable (m : (ℓ : Loc nD τ sig) → Buf (Elt Ideal) ℓ) (ρ : Dev nD → PrngReg) (c : Dev nD)

/-- The attention region's query array is the projected query array. -/
theorem qh_eq : @Eq Cert.Attn.Seq (V5 m ρ c (Pipeline.arrRef spec3 0))
    (Cert.Attn.projArr (m ((c.tc : Thread nD τ).loc main_arg0)) (m ((c.tc : Thread nD τ).loc main_arg3))) := by
  funext i
  obtain ⟨b, s, e, rfl⟩ : ∃ (b : Fin 2) (s : Fin 2048) (e : Fin 1024), i = ix3 b s e := ⟨i 0, i 1, i 2, eq_ix3 i⟩
  rw [qh_rows m ρ c b s e, MatRegion.arr0, projArr_ix3]
  exact Finset.sum_congr (M := EReal) rfl fun d _ => by rw [q_rows m ρ c b s d, wqT m ρ c d e]

/-- The attention region's key array is the projected key array. -/
theorem kh_eq : @Eq Cert.Attn.Seq (V5 m ρ c (Pipeline.arrRef spec3 1))
    (Cert.Attn.projArr (m ((c.tc : Thread nD τ).loc main_arg1)) (m ((c.tc : Thread nD τ).loc main_arg4))) := by
  funext i
  obtain ⟨b, s, e, rfl⟩ : ∃ (b : Fin 2) (s : Fin 2048) (e : Fin 1024), i = ix3 b s e := ⟨i 0, i 1, i 2, eq_ix3 i⟩
  rw [kh_rows m ρ c b s e, MatRegion.arr1, projArr_ix3]
  exact Finset.sum_congr (M := EReal) rfl fun d _ => by rw [k_rows m ρ c b s d, wkT m ρ c d e]

/-- The attention region's value array is the projected value array. -/
theorem vh_eq : @Eq Cert.Attn.Seq (V5 m ρ c (Pipeline.arrRef spec3 2))
    (Cert.Attn.projArr (m ((c.tc : Thread nD τ).loc main_arg2)) (m ((c.tc : Thread nD τ).loc main_arg5))) := by
  funext i
  obtain ⟨b, s, e, rfl⟩ : ∃ (b : Fin 2) (s : Fin 2048) (e : Fin 1024), i = ix3 b s e := ⟨i 0, i 1, i 2, eq_ix3 i⟩
  rw [vh_rows m ρ c b s e, MatRegion.arr2, projArr_ix3]
  exact Finset.sum_congr (M := EReal) rfl fun d _ => by rw [v_rows m ρ c b s d, wvT m ρ c d e]

end Cert.KernelIdeal.Fold

end
-- ==== Proof.AttnPieces.lean ====
/-
  The attention region's body, read as a function. The body walks the eight pairs of heads: trip k
  loads columns 128·k … 128·k+127 of the query block and of the whole key and value slabs, computes
  the two heads' contexts, and stores them side by side into the same columns of the output block.
  So each trip leaves ONE rectangle of the output block, the rectangles of the eight trips tile the
  block, and the block after the body is a single function of the three input blocks: at column e
  it is the head-pair block of pair e / 128 at local column e % 128.
-/
import proofs.«157128_j17892833755600_2_alg».proof.Proof.Gen.KernelIdeal.Frame
import Idealize.ShloMosaic.Lib.Pipeline.Value
import Idealize.ShloMosaic.Lib.ValueIdx

set_option maxRecDepth 16384

noncomputable section

namespace Cert.KernelIdeal.AttnRegion

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop makes eight trips. -/
theorem trips_eq : k3_t1_loop.trips = 8 := by decide

/-- Trip k works on columns 128·k onward: the offsets of its loads and of its store. -/
theorem off1_eq : ∀ k : Fin k3_t1_loop.trips, ∀ a : Fin 3, k3_off1 k a = (![0, 0, 128 * k.val] : Fin 3 → ℕ) a := by decide +kernel
theorem off2_eq : ∀ k : Fin k3_t1_loop.trips, ∀ a : Fin 3, k3_off2 k a = (![0, 0, 128 * k.val] : Fin 3 → ℕ) a := by decide +kernel

/-- The 128 columns of pair k in the query / output block, and in a key or value slab. -/
abbrev qCols (k : Fin k3_t1_loop.trips) : Rect S1x256x1024 := Rect.unit (s := S1x256x1024) (k3_off1 k) S1x256x128.size (k3_off1_inb k)
abbrev kvCols (k : Fin k3_t1_loop.trips) : Rect S1x2048x1024 := Rect.unit (s := S1x2048x1024) (k3_off2 k) S1x2048x128.size (k3_off2_inb k)

/-- What trip k stores: the two heads' contexts of pair k, from the pair's columns of the three blocks. -/
def pairBlock (x0 : Vec F S1x256x1024 .bf16) (x1 x2 : Vec F S1x2048x1024 .bf16) (k : Fin k3_t1_loop.trips) : FVec F S1x256x128 .bf16 :=
  k3_pay1 (k3_pay5 (View.ld x0 (qCols k)) (View.ld x1 (kvCols k)) (View.ld x2 (kvCols k))) (k3_pay6 (View.ld x2 (kvCols k)))
    (k3_pay7 (View.ld x0 (qCols k)) (View.ld x1 (kvCols k))) (k3_pay8 (View.ld x0 (qCols k)) (View.ld x1 (kvCols k)))

/-- The pair a column of the block belongs to. -/
def pairOf (y : S1x256x1024.Idx) : Fin k3_t1_loop.trips :=
  ⟨(y 2).val / 128, by rw [trips_eq]; have h : (y 2).val < 1024 := (y 2).isLt; omega⟩

/-- The position inside the pair's block. -/
def inPair (y : S1x256x1024.Idx) : S1x256x128.Idx :=
  ix3 (0 : Fin 1) (⟨(y 1).val, (y 1).isLt⟩ : Fin 256) (⟨(y 2).val % 128, Nat.mod_lt _ (by decide)⟩ : Fin 128)

/-- The output block after the body, as one function of the input blocks. -/
def blockOf (x0 : Vec F S1x256x1024 .bf16) (x1 x2 : Vec F S1x2048x1024 .bf16) : Vec F S1x256x1024 .bf16 :=
  fun y => pairBlock x0 x1 x2 (pairOf y) (inPair y)

/-- A position of pair k's rectangle is in pair k, at its own place. -/
theorem pairOf_emb (k : Fin k3_t1_loop.trips) (x : (qCols k).shape.Idx) : pairOf ((qCols k).emb x) = k := by
  apply Fin.ext
  show ((qCols k).emb x 2 : ℕ) / 128 = k.val
  rw [Rect.emb_apply]
  show (k3_off1 k 2 + 1 * (x 2).val) / 128 = k.val
  rw [off1_eq k 2]
  have h : (x 2).val < 128 := (x 2).isLt
  show (128 * k.val + 1 * (x 2).val) / 128 = k.val
  omega

theorem inPair_emb (k : Fin k3_t1_loop.trips) (x : (qCols k).shape.Idx) : inPair ((qCols k).emb x) = x := by
  funext a
  apply Fin.ext
  have h0 : (x 0).val < 1 := (x 0).isLt
  have h2 : (x 2).val < 128 := (x 2).isLt
  match a with
  | ⟨0, _⟩ => show (0 : ℕ) = (x 0).val; omega
  | ⟨1, _⟩ =>
    show ((qCols k).emb x 1 : ℕ) = (x 1).val
    rw [Rect.emb_apply]; show k3_off1 k 1 + 1 * (x 1).val = (x 1).val; rw [off1_eq k 1]; show 0 + 1 * (x 1).val = _; omega
  | ⟨2, _⟩ =>
    show ((qCols k).emb x 2 : ℕ) % 128 = (x 2).val
    rw [Rect.emb_apply]; show (k3_off1 k 2 + 1 * (x 2).val) % 128 = (x 2).val; rw [off1_eq k 2]
    show (128 * k.val + 1 * (x 2).val) % 128 = (x 2).val; omega

theorem blockOf_emb (x0 : Vec F S1x256x1024 .bf16) (x1 x2 : Vec F S1x2048x1024 .bf16) (k : Fin k3_t1_loop.trips)
    (x : (qCols k).shape.Idx) : blockOf x0 x1 x2 ((qCols k).emb x) = pairBlock x0 x1 x2 k x := by
  unfold blockOf
  rw [pairOf_emb, inPair_emb]

section Run
variable (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole)
  (x0 : Vec F S1x256x1024 .bf16) (x1 x2 : Vec F S1x2048x1024 .bf16)

/-- One trip's pieces: the single store of the pair's block through the pair's columns. -/
theorem trip_piece (k : Fin k3_t1_loop.trips) :
    tripL_k3_t1 (F := F) Variants.none c none i arg2 harg2 arg3 harg3 arg4 harg4 arg5 harg5 (harg2.unread x0) (harg3.unread x1) (harg4.unread x2) k
      = [(⟨qCols k, pairBlock x0 x1 x2 k⟩ : View.Piece (Elt F) S1x256x1024 .bf16)] := by
  show (trip_k3_t1 (F := F) Variants.none c none i arg2 harg2 arg3 harg3 arg4 harg4 arg5 harg5 (harg2.unread x0) (harg3.unread x1) (harg4.unread x2) k).1 = _
  unfold trip_k3_t1
  dsimp only
  sl_unfold_run_names
  simp only [View.readAt_eq_ld, Memref.IsWhole.read_unread]
  rfl

/-- The whole body's pieces are the trips' pieces. -/
theorem run_pieces :
    (kernelRun3_A (F := F) c i arg2 harg2 arg3 harg3 arg4 harg4 arg5 harg5 x0 x1 x2).1 = pb_k3_t1 (F := F) Variants.none c none i arg2 harg2 arg3 harg3 arg4 harg4 arg5 harg5 (harg2.unread x0) (harg3.unread x1) (harg4.unread x2) k3_t1_loop.trips := by
  unfold kernelRun3_A
  rfl

/-- Every piece written before trip n is the restriction of the one block function to its rectangle. -/
theorem pieces_agree (n : ℕ) (hn : n ≤ k3_t1_loop.trips) :
    ∀ p ∈ pb_k3_t1 (F := F) Variants.none c none i arg2 harg2 arg3 harg3 arg4 harg4 arg5 harg5 (harg2.unread x0) (harg3.unread x1) (harg4.unread x2) n, ∀ x : p.1.shape.Idx, p.2 x = blockOf x0 x1 x2 (p.1.emb x) := by
  induction n with
  | zero => intro p hp; exact absurd hp (List.not_mem_nil)
  | succ n ih =>
    intro p hp
    have hlt : n < k3_t1_loop.trips := hn
    have e := pb_k3_t1_succ (F := F) Variants.none c none i arg2 harg2 arg3 harg3 arg4 harg4 arg5 harg5 (harg2.unread x0) (harg3.unread x1) (harg4.unread x2) ⟨n, hlt⟩
    rw [trip_piece] at e
    rw [show n + 1 = (⟨n, hlt⟩ : Fin k3_t1_loop.trips).val + 1 from rfl, e] at hp
    rcases List.mem_append.mp hp with h | h
    · obtain rfl := List.mem_singleton.mp h
      intro x
      exact (blockOf_emb x0 x1 x2 ⟨n, hlt⟩ x).symm
    · exact ih (Nat.le_of_lt hlt) p h

/-- The output staging buffer after the body is the block function of the three input blocks. -/
theorem out_eq : out3_A_3 (F := F) c i arg2 harg2 arg3 harg3 arg4 harg4 arg5 harg5 x0 x1 x2 = blockOf x0 x1 x2 := by
  unfold out3_A_3
  rw [View.read_writes_eq_canon _ _ _ (cover3_A_3 c i arg2 harg2 arg3 harg3 arg4 harg4 arg5 harg5 x0 x1 x2)]
  funext y
  refine View.canon_apply_of_pieces (blockOf x0 x1 x2) _ ?_ y (cover3_A_3 c i arg2 harg2 arg3 harg3 arg4 harg4 arg5 harg5 x0 x1 x2 y)
  rw [run_pieces]
  exact pieces_agree c i arg2 harg2 arg3 harg3 arg4 harg4 arg5 harg5 x0 x1 x2 _ le_rfl

end Run

end Cert.KernelIdeal.AttnRegion

end
-- ==== Proof.HeadCtx.lean ====
/-
  A head's context at one query row, written over the row's sixty-four query features and the head's
  key and value rows alone — the form in which a block of the computation states it — and the
  specification's context as that function of the projected arrays' rows.
-/
import proofs.«157128_j17892833755600_2_alg».proof.Proof.Spec

noncomputable section

namespace Cert.Attn

open Idealize.ShloMosaic Idealize.ShloMosaic.ValueIdx

/-- A head's context at one query row and one coordinate: scaled dot products of the query features with each
    key row, the weights exp(score − maximum), the reciprocal of their sum, the weighted sum of the value rows. -/
def headCtx (qh : Fin 64 → EReal) (Kh Vh : Fin 2048 → Fin 64 → EReal) (d : Fin 64) : EReal :=
  ∑ k : Fin 2048,
    (wt (fun k' => (∑ j : Fin 64, qh j * Kh k' j) * eighth) k
      * Ideal.div one (den (fun k' => (∑ j : Fin 64, qh j * Kh k' j) * eighth))) * Vh k d

/-- The specification's context (reciprocal form) is the head's context of the arrays' rows. -/
theorem ctxMul_eq_headCtx (Q K V : Seq) (b : Fin 2) (s : Fin 2048) (h : Fin 16) (d : Fin 64) :
    ctxMul Q K V b s h d
      = headCtx (fun j => Q (ix3 b s (col h j))) (fun k j => K (ix3 b k (col h j))) (fun k j => V (ix3 b k (col h j))) d := rfl

end Cert.Attn

end
-- ==== Proof.AttnArray.lean ====
/- The attention region works over a grid of 2 × 8 points: point t is batch t / 8 and query tile t % 8. It reads 256
   query rows of that batch and the batch's whole key and value slabs, and writes back the 256 matching rows of the
   output. Given what one point's output block is at an entry — each head's context of the query row against the key
   and value rows of the head — this module reads the region's whole output array after the sixteen points: at
   (b, s, e) it is the context of head e / 64, coordinate e % 64, of query row s of batch b, over the three operand
   arrays as the region finds them. -/
import proofs.«157128_j17892833755600_2_alg».proof.Proof.Gen.KernelIdeal.Frame
import proofs.«157128_j17892833755600_2_alg».proof.Proof.AttnPieces
import proofs.«157128_j17892833755600_2_alg».proof.Proof.HeadCtx
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.AttnRegion.Arr

open Cert.KernelIdeal Cert.KernelIdeal.Gen

/-- One grid point's output block: when the query block is rows `256 n … 256 n + 255` of batch `b` of `Q` and the key
    and value blocks are batch `b` of `K` and `W`, entry `(r, e)` of the block is entry `(b, 256 n + r, e)` of the
    contexts of `Q`, `K`, `W`. -/
theorem block_entry (hblock : ∀ (x0 : Vec Ideal S1x256x1024 .bf16) (x1 x2 : Vec Ideal S1x2048x1024 .bf16) (r : Fin 256) (e : Fin 1024),
      Cert.KernelIdeal.AttnRegion.blockOf x0 x1 x2 (ix3 (0 : Fin 1) r e)
        = Cert.Attn.headCtx (fun j => x0 (ix3 (0 : Fin 1) r (Cert.Attn.col (Cert.Attn.headOf e) j)))
            (fun k j => x1 (ix3 (0 : Fin 1) k (Cert.Attn.col (Cert.Attn.headOf e) j)))
            (fun k j => x2 (ix3 (0 : Fin 1) k (Cert.Attn.col (Cert.Attn.headOf e) j))) (Cert.Attn.coordOf e))
    (Q K W : Cert.Attn.Seq) (x0 : Vec Ideal S1x256x1024 .bf16) (x1 x2 : Vec Ideal S1x2048x1024 .bf16)
    (b : Fin 2) (n : Nat) (hn : n < 8)
    (h0 : ∀ (r : Fin 256) (e : Fin 1024), x0 (ix3 (0 : Fin 1) r e) = Q (ix3 b (⟨256 * n + r.val, by omega⟩ : Fin 2048) e))
    (h1 : ∀ (k : Fin 2048) (e : Fin 1024), x1 (ix3 (0 : Fin 1) k e) = K (ix3 b k e))
    (h2 : ∀ (k : Fin 2048) (e : Fin 1024), x2 (ix3 (0 : Fin 1) k e) = W (ix3 b k e))
    (r : Fin 256) (e : Fin 1024) :
    Cert.KernelIdeal.AttnRegion.blockOf x0 x1 x2 (ix3 (0 : Fin 1) r e)
      = Cert.Attn.ctxArrMul Q K W (ix3 b (⟨256 * n + r.val, by omega⟩ : Fin 2048) e) := by
  rw [hblock]
  show _ = Cert.Attn.ctxMul Q K W b (⟨256 * n + r.val, by omega⟩ : Fin 2048) (Cert.Attn.headOf e) (Cert.Attn.coordOf e)
  rw [Cert.Attn.ctxMul_eq_headCtx]
  simp only [h0, h1, h2]

variable (V : (c : Dev nD) → (b : Ref sig .tc) → Buf (Elt Ideal) ((c : Thread nD τ).loc b))

/-- The printed index maps over the sixteen grid points: the query's and the output's block index is (batch, tile, 0),
    the key's and the value's is (batch, 0, 0), with batch `t / 8` and tile `t % 8`. -/
theorem idx_facts : ∀ t : Fin cfg3.N,
    win3_0.index t (0 : Fin 3) = t.val / 8 ∧ win3_0.index t (1 : Fin 3) = t.val % 8 ∧ win3_0.index t (2 : Fin 3) = 0
    ∧ win3_1.index t (0 : Fin 3) = t.val / 8 ∧ win3_1.index t (1 : Fin 3) = 0 ∧ win3_1.index t (2 : Fin 3) = 0
    ∧ win3_2.index t (0 : Fin 3) = t.val / 8 ∧ win3_2.index t (1 : Fin 3) = 0 ∧ win3_2.index t (2 : Fin 3) = 0
    ∧ win3_3.index t (0 : Fin 3) = t.val / 8 ∧ win3_3.index t (1 : Fin 3) = t.val % 8 ∧ win3_3.index t (2 : Fin 3) = 0 :=
  (by decide +kernel : ∀ t : Fin grid3.N, _)

/-- The query block at point `t` is rows `256 (t % 8) … 256 (t % 8) + 255` of batch `t / 8` of its array. -/
theorem query_block (c : Dev nD) (t : Fin cfg3.N) (ht : t.val < 16) (r : Fin 256) (e : Fin 1024) :
    (iblk3 V c 0 t : Vec Ideal S1x256x1024 .bf16) (ix3 (0 : Fin 1) r e)
      = (V c (Pipeline.arrRef spec3 0) : S2x2048x1024.Idx → Elt Ideal .bf16)
          (ix3 (⟨t.val / 8, by omega⟩ : Fin 2) (⟨256 * (t.val % 8) + r.val, by omega⟩ : Fin 2048) e) := by
  obtain ⟨e0, e1, e2, -, -, -, -, -, -, -, -, -⟩ := idx_facts t
  unfold iblk3
  rw [View.read_apply]
  show (V c (Pipeline.arrRef spec3 0) : S2x2048x1024.Idx → Elt Ideal .bf16) (((cfg3.win 0).blk t).view.emb (ix3 (0 : Fin 1) r e)) = _
  refine congrArg _ ?_
  funext a
  apply Fin.ext
  match a with
  | ⟨0, _⟩ => show win3_0.index t (0 : Fin 3) * 1 + 1 * 0 = t.val / 8; rw [e0]; omega
  | ⟨1, _⟩ => show win3_0.index t (1 : Fin 3) * 256 + 1 * r.val = 256 * (t.val % 8) + r.val; rw [e1]; omega
  | ⟨2, _⟩ => show win3_0.index t (2 : Fin 3) * 1024 + 1 * e.val = e.val; rw [e2]; omega

/-- The key block at point `t` is the whole slab of batch `t / 8` of its array, the same at all eight tiles. -/
theorem key_block (c : Dev nD) (t : Fin cfg3.N) (ht : t.val < 16) (k : Fin 2048) (e : Fin 1024) :
    (iblk3 V c 1 t : Vec Ideal S1x2048x1024 .bf16) (ix3 (0 : Fin 1) k e)
      = (V c (Pipeline.arrRef spec3 1) : S2x2048x1024.Idx → Elt Ideal .bf16) (ix3 (⟨t.val / 8, by omega⟩ : Fin 2) k e) := by
  obtain ⟨-, -, -, f0, f1, f2, g0, g1, g2, -, -, -⟩ := idx_facts t
  unfold iblk3
  rw [View.read_apply]
  show (V c (Pipeline.arrRef spec3 1) : S2x2048x1024.Idx → Elt Ideal .bf16) (((cfg3.win 1).blk t).view.emb (ix3 (0 : Fin 1) k e)) = _
  refine congrArg _ ?_
  funext a
  apply Fin.ext
  match a with
  | ⟨0, _⟩ => show win3_1.index t (0 : Fin 3) * 1 + 1 * 0 = t.val / 8; rw [f0]; omega
  | ⟨1, _⟩ => show win3_1.index t (1 : Fin 3) * 2048 + 1 * k.val = k.val; rw [f1]; omega
  | ⟨2, _⟩ => show win3_1.index t (2 : Fin 3) * 1024 + 1 * e.val = e.val; rw [f2]; omega

/-- The value block at point `t` is the whole slab of batch `t / 8` of its array, the same at all eight tiles. -/
theorem value_block (c : Dev nD) (t : Fin cfg3.N) (ht : t.val < 16) (k : Fin 2048) (e : Fin 1024) :
    (iblk3 V c 2 t : Vec Ideal S1x2048x1024 .bf16) (ix3 (0 : Fin 1) k e)
      = (V c (Pipeline.arrRef spec3 2) : S2x2048x1024.Idx → Elt Ideal .bf16) (ix3 (⟨t.val / 8, by omega⟩ : Fin 2) k e) := by
  obtain ⟨-, -, -, f0, f1, f2, g0, g1, g2, -, -, -⟩ := idx_facts t
  unfold iblk3
  rw [View.read_apply]
  show (V c (Pipeline.arrRef spec3 2) : S2x2048x1024.Idx → Elt Ideal .bf16) (((cfg3.win 2).blk t).view.emb (ix3 (0 : Fin 1) k e)) = _
  refine congrArg _ ?_
  funext a
  apply Fin.ext
  match a with
  | ⟨0, _⟩ => show win3_2.index t (0 : Fin 3) * 1 + 1 * 0 = t.val / 8; rw [g0]; omega
  | ⟨1, _⟩ => show win3_2.index t (1 : Fin 3) * 2048 + 1 * k.val = k.val; rw [g1]; omega
  | ⟨2, _⟩ => show win3_2.index t (2 : Fin 3) * 1024 + 1 * e.val = e.val; rw [g2]; omega

/-- What point `t` writes back is block `t` of the contexts of the three operand arrays as the region finds them. -/
theorem flushed_eq (hblock : ∀ (x0 : Vec Ideal S1x256x1024 .bf16) (x1 x2 : Vec Ideal S1x2048x1024 .bf16) (r : Fin 256) (e : Fin 1024),
      Cert.KernelIdeal.AttnRegion.blockOf x0 x1 x2 (ix3 (0 : Fin 1) r e)
        = Cert.Attn.headCtx (fun j => x0 (ix3 (0 : Fin 1) r (Cert.Attn.col (Cert.Attn.headOf e) j)))
            (fun k j => x1 (ix3 (0 : Fin 1) k (Cert.Attn.col (Cert.Attn.headOf e) j)))
            (fun k j => x2 (ix3 (0 : Fin 1) k (Cert.Attn.col (Cert.Attn.headOf e) j))) (Cert.Attn.coordOf e))
    (c : Dev nD) (t : Fin cfg3.N) :
    (dat3 (F := Ideal) V c).flushed 3 t
      = ((cfg3.win 3).blk t).view.read (Elt Ideal)
          (Cert.Attn.ctxArrMul (V c (Pipeline.arrRef spec3 0)) (V c (Pipeline.arrRef spec3 1)) (V c (Pipeline.arrRef spec3 2))) := by
  show (cfg3.win 3).cut (grid3.coords t) ((dat3 V c).after 3 t) = _
  rw [after3_3]
  unfold outsAt3
  rw [Cert.KernelIdeal.AttnRegion.out_eq]
  have hN : cfg3.N = 16 := N_3
  have ht : t.val < 16 := by have := t.isLt; omega
  obtain ⟨-, -, -, -, -, -, -, -, -, o0, o1, o2⟩ := idx_facts t
  refine funext fun (j : S1x256x1024.Idx) => ?_
  obtain ⟨u, r, e, rfl⟩ : ∃ (u : Fin 1) (r : Fin 256) (e : Fin 1024), j = ix3 u r e := ⟨j 0, j 1, j 2, eq_ix3 j⟩
  obtain rfl : u = 0 := Subsingleton.elim _ _
  have hemb : ((cfg3.win 3).blk t).view.emb (ix3 (0 : Fin 1) r e)
      = ix3 (⟨t.val / 8, by omega⟩ : Fin 2) (⟨256 * (t.val % 8) + r.val, by omega⟩ : Fin 2048) e := by
    funext a
    apply Fin.ext
    match a with
    | ⟨0, _⟩ => show win3_3.index t (0 : Fin 3) * 1 + 1 * 0 = t.val / 8; rw [o0]; omega
    | ⟨1, _⟩ => show win3_3.index t (1 : Fin 3) * 256 + 1 * r.val = 256 * (t.val % 8) + r.val; rw [o1]; omega
    | ⟨2, _⟩ => show win3_3.index t (2 : Fin 3) * 1024 + 1 * e.val = e.val; rw [o2]; omega
  show Cert.KernelIdeal.AttnRegion.blockOf (F := Ideal) (iblk3 V c 0 t) (iblk3 V c 1 t) (iblk3 V c 2 t) (ix3 (0 : Fin 1) r e)
    = Cert.Attn.ctxArrMul (V c (Pipeline.arrRef spec3 0)) (V c (Pipeline.arrRef spec3 1)) (V c (Pipeline.arrRef spec3 2))
        (((cfg3.win 3).blk t).view.emb (ix3 (0 : Fin 1) r e))
  rw [hemb]
  exact block_entry hblock (V c (Pipeline.arrRef spec3 0)) (V c (Pipeline.arrRef spec3 1)) (V c (Pipeline.arrRef spec3 2))
    (iblk3 V c 0 t) (iblk3 V c 1 t) (iblk3 V c 2 t) (⟨t.val / 8, by omega⟩ : Fin 2) (t.val % 8) (by omega)
    (fun r e => query_block V c t ht r e) (fun k e => key_block V c t ht k e) (fun k e => value_block V c t ht k e) r e

/-- An index of the output array is in point `t`'s block iff each coordinate is in the block's range on its axis. -/
theorem mem_blk (t : Fin cfg3.N) (i : S2x2048x1024.Idx) :
    i ∈ ((cfg3.win 3).blk t).view.set ↔ ∀ a : Fin 3, win3_3.index t a * S1x256x1024.size a ≤ (i a).val ∧ (i a).val < win3_3.index t a * S1x256x1024.size a + S1x256x1024.size a := by
  show i ∈ ((View.whole main_v17).slice (win3_3.rect t)).set ↔ _
  rw [View.set_slice_whole, Rect.mem_set_unit]
  exact Iff.rfl

/-- Every position of the output array is in some point's block: `(b, s, e)` in that of point `8 b + s / 256`. -/
theorem cover (i : S2x2048x1024.Idx) :
    ∃ t : Fin cfg3.N, (cfg3.win 3).flush t = true ∧ i ∈ ((cfg3.win 3).blk t).view.set := by
  have hN : cfg3.N = 16 := N_3
  have hi0 : (i 0).val < 2 := (i 0).isLt
  have hi1 : (i 1).val < 2048 := (i 1).isLt
  have hi2 : (i 2).val < 1024 := (i 2).isLt
  obtain ⟨t, ht⟩ : ∃ t : Fin cfg3.N, t.val = 8 * (i 0).val + (i 1).val / 256 := ⟨⟨8 * (i 0).val + (i 1).val / 256, by omega⟩, rfl⟩
  obtain ⟨-, -, -, -, -, -, -, -, -, o0, o1, o2⟩ := idx_facts t
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; rw [o0]; omega
  | ⟨1, _⟩ => show win3_3.index t (1 : Fin 3) * 256 ≤ (i 1).val ∧ (i 1).val < win3_3.index t (1 : Fin 3) * 256 + 256; rw [o1]; omega
  | ⟨2, _⟩ => show win3_3.index t (2 : Fin 3) * 1024 ≤ (i 2).val ∧ (i 2).val < win3_3.index t (2 : Fin 3) * 1024 + 1024; rw [o2]; omega

/-- The output array after the region's sixteen points is the contexts of the three operand arrays as the region
    finds them. -/
theorem final (hblock : ∀ (x0 : Vec Ideal S1x256x1024 .bf16) (x1 x2 : Vec Ideal S1x2048x1024 .bf16) (r : Fin 256) (e : Fin 1024),
      Cert.KernelIdeal.AttnRegion.blockOf x0 x1 x2 (ix3 (0 : Fin 1) r e)
        = Cert.Attn.headCtx (fun j => x0 (ix3 (0 : Fin 1) r (Cert.Attn.col (Cert.Attn.headOf e) j)))
            (fun k j => x1 (ix3 (0 : Fin 1) k (Cert.Attn.col (Cert.Attn.headOf e) j)))
            (fun k j => x2 (ix3 (0 : Fin 1) k (Cert.Attn.col (Cert.Attn.headOf e) j))) (Cert.Attn.coordOf e))
    (c : Dev nD) :
    (dat3 (F := Ideal) V c).arrAt 3 cfg3.N
      = Cert.Attn.ctxArrMul (V c (Pipeline.arrRef spec3 0)) (V c (Pipeline.arrRef spec3 1)) (V c (Pipeline.arrRef spec3 2)) :=
  (dat3 (F := Ideal) V c).arrAt_eq_of_cover 3 _ (fun t _ => flushed_eq V hblock c t) cover

end Cert.KernelIdeal.AttnRegion.Arr

namespace Cert.KernelIdeal.AttnRegion

open Cert.KernelIdeal Cert.KernelIdeal.Gen

/-- The attention region's output array after its sixteen grid points, at batch `b`, position `s`, feature `e`: the
    context of head `e / 64`, coordinate `e % 64`, of query row `s`, over the query, key and value arrays as the region
    finds them — given what one point's output block is at an entry. -/
theorem arr3_of (hblock : ∀ (x0 : Vec Ideal S1x256x1024 .bf16) (x1 x2 : Vec Ideal S1x2048x1024 .bf16) (r : Fin 256) (e : Fin 1024),
      Cert.KernelIdeal.AttnRegion.blockOf x0 x1 x2 (ix3 (0 : Fin 1) r e)
        = Cert.Attn.headCtx (fun j => x0 (ix3 (0 : Fin 1) r (Cert.Attn.col (Cert.Attn.headOf e) j)))
            (fun k j => x1 (ix3 (0 : Fin 1) k (Cert.Attn.col (Cert.Attn.headOf e) j)))
            (fun k j => x2 (ix3 (0 : Fin 1) k (Cert.Attn.col (Cert.Attn.headOf e) j))) (Cert.Attn.coordOf e))
    (V : (c : Dev nD) → (b : Ref sig .tc) → Buf (Elt Ideal) ((c : Thread nD τ).loc b)) (c : Dev nD) (b : Fin 2) (s : Fin 2048) (e : Fin 1024) :
    (dat3 (F := Ideal) V c).arrAt 3 cfg3.N (ix3 b s e)
      = Cert.Attn.ctxMul (V c (Pipeline.arrRef spec3 0)) (V c (Pipeline.arrRef spec3 1)) (V c (Pipeline.arrRef spec3 2))
          b s (Cert.Attn.headOf e) (Cert.Attn.coordOf e) :=
  congrFun (Arr.final V hblock c) (ix3 b s e)

end Cert.KernelIdeal.AttnRegion

end
-- ==== Proof.AttnOps.lean ====
/-
  The attention body's operations that are not pointwise, each read at one index over the extended
  reals: the two matrix products (query rows against key rows over a head's sixty-four features;
  weights against value rows over the 2048 keys), the row maximum and the row sum over the keys, the
  column forms of a row statistic (a length-256 vector as a 256×1 column, a column repeated along the
  2048 keys), a head's sixty-four columns cut out of a pair's 128, and two heads' contexts put side
  by side.
-/
import proofs.«157128_j17892833755600_2_alg».proof.Proof.Gen.KernelIdeal
import proofs.«157128_j17892833755600_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnOps

open Cert.KernelIdeal
open Idealize.ShloMosaic Idealize.ShloMosaic.TcCoe Idealize.ShloMosaic.ValueIdx
open Cert.KernelIdeal.Facts₀

/-- The word of −∞ is the bottom of the extended reals. -/
theorem negInf_word : Ideal.ofBits .f32 0xFF800000#32 = (⊥ : EReal) := by
  simp [Ideal.ofBits, Ideal.ieee]

/-- Which operand coordinates an output position (r, k) and a contraction position q of the scores' product name. -/
theorem qk_lhs0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs1 (i : S256x2048.Idx) (q : dot_S256x64_S2048x64_S256x2048_1_1_0_0_n_n.contr.Idx) : (dot_S256x64_S2048x64_S256x2048_1_1_0_0_n_n.lhsIdx i q 1).val = (q ⟨0, by decide⟩).val :=
  dot_S256x64_S2048x64_S256x2048_1_1_0_0_n_n.lhsIdx_val_of_single rfl i q
theorem qk_rhs0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs1 (i : S256x2048.Idx) (q : dot_S256x64_S2048x64_S256x2048_1_1_0_0_n_n.contr.Idx) : (dot_S256x64_S2048x64_S256x2048_1_1_0_0_n_n.rhsIdx i q 1).val = (q ⟨0, by decide⟩).val :=
  dot_S256x64_S2048x64_S256x2048_1_1_0_0_n_n.rhsIdx_val_of_single rfl i q

/-- The same for the product of the weights with the values. -/
theorem pv_lhs0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs1 (i : S256x64.Idx) (q : dot_S256x2048_S2048x64_S256x64_1_0_0_1_n_n.contr.Idx) : (dot_S256x2048_S2048x64_S256x64_1_0_0_1_n_n.lhsIdx i q 1).val = (q ⟨0, by decide⟩).val :=
  dot_S256x2048_S2048x64_S256x64_1_0_0_1_n_n.lhsIdx_val_of_single rfl i q
theorem pv_rhs0 (i : S256x64.Idx) (q : dot_S256x2048_S2048x64_S256x64_1_0_0_1_n_n.contr.Idx) : (dot_S256x2048_S2048x64_S256x64_1_0_0_1_n_n.rhsIdx i q 0).val = (q ⟨0, by decide⟩).val :=
  dot_S256x2048_S2048x64_S256x64_1_0_0_1_n_n.rhsIdx_val_of_single rfl i q
theorem pv_rhs1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Scores: row r of the queries against row k of the keys, over the head's features. -/
theorem matQK_apply (qh : FVec Ideal S256x64 .bf16) (kh : FVec Ideal S2048x64 .bf16) (r : Fin 256) (k : Fin 2048) :
    FloatOps.matmul dot_S256x64_S2048x64_S256x2048_1_1_0_0_n_n none qh kh (constant S256x2048 .f32 0x00000000#32) (ix2 r k)
      = ∑ j : Fin 64, qh (ix2 r j) * kh (ix2 k j) := by
  rw [Ideal.matmul_constant_zero_apply, ← Equiv.sum_comp (ValueIdx.contrEquiv1 dot_S256x64_S2048x64_S256x2048_1_1_0_0_n_n 64 rfl rfl).symm]
  refine Finset.sum_congr rfl fun j _ => ?_
  have hj := ValueIdx.contrEquiv1_symm_val dot_S256x64_S2048x64_S256x2048_1_1_0_0_n_n 64 rfl rfl j
  have el : dot_S256x64_S2048x64_S256x2048_1_1_0_0_n_n.lhsIdx (ix2 r k) ((ValueIdx.contrEquiv1 dot_S256x64_S2048x64_S256x2048_1_1_0_0_n_n 64 rfl rfl).symm j) = ix2 r j := funext fun a => Fin.ext (by
    match a with
    | ⟨0, _⟩ => exact qk_lhs0 _ _
    | ⟨1, _⟩ => exact (qk_lhs1 _ _).trans hj)
  have er : dot_S256x64_S2048x64_S256x2048_1_1_0_0_n_n.rhsIdx (ix2 r k) ((ValueIdx.contrEquiv1 dot_S256x64_S2048x64_S256x2048_1_1_0_0_n_n 64 rfl rfl).symm j) = ix2 k j := funext fun a => Fin.ext (by
    match a with
    | ⟨0, _⟩ => exact qk_rhs0 _ _
    | ⟨1, _⟩ => exact (qk_rhs1 _ _).trans hj)
  rw [el, er]

/-- Context: row r of the weights against column d of the values, over the keys. -/
theorem matPV_apply (a : FVec Ideal S256x2048 .bf16) (vh : FVec Ideal S2048x64 .bf16) (r : Fin 256) (d : Fin 64) :
    FloatOps.matmul dot_S256x2048_S2048x64_S256x64_1_0_0_1_n_n none a vh (constant S256x64 .f32 0x00000000#32) (ix2 r d)
      = ∑ k : Fin 2048, a (ix2 r k) * vh (ix2 k d) := by
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d) ((ValueIdx.contrEquiv1 dot_S256x2048_S2048x64_S256x64_1_0_0_1_n_n 2048 rfl rfl).symm k) = ix2 r k := funext fun a => Fin.ext (by
    match a with
    | ⟨0, _⟩ => exact pv_lhs0 _ _
    | ⟨1, _⟩ => exact (pv_lhs1 _ _).trans hk)
  have er : dot_S256x2048_S2048x64_S256x64_1_0_0_1_n_n.rhsIdx (ix2 r d) ((ValueIdx.contrEquiv1 dot_S256x2048_S2048x64_S256x64_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

/-- The index a reduction over the keys inserts: row r with key k put back. -/
theorem lift_row (r : Fin 256) (k : Fin 2048) : reduces_S256x2048_S256.lift (ix1 r) k = ix2 r k :=
  funext fun a => Fin.ext (by
    match a with
    | ⟨0, _⟩ => rfl
    | ⟨1, _⟩ => rfl)

/-- The row maximum over the keys, from −∞. -/
theorem rowMax_apply (sc : FVec Ideal S256x2048 .f32) (r : Fin 256) :
    multiReduction .maximumf [1] S256 sc 0xFF800000#32 reduces_S256x2048_S256 (.inl rfl) rfl (ix1 r)
      = Cert.Attn.rowMax (fun k => sc (ix2 r k)) := by
  refine (Ideal.multiReduction_maximumf_single sc 0xFF800000#32 reduces_S256x2048_S256 (.inl rfl) rfl (ix1 r)).trans ?_
  unfold Cert.Attn.rowMax
  rw [Ideal.ofBits_def, negInf_word]
  refine congrArg (fun f => Finset.fold max (⊥ : EReal) f (Finset.univ : Finset (Fin 2048))) ?_
  funext k
  exact congrArg sc (lift_row r k)

/-- The row sum over the keys. -/
theorem rowSum_apply (p : FVec Ideal S256x2048 .f32) (r : Fin 256) :
    multiReduction .add [1] S256 p 0x00000000#32 reduces_S256x2048_S256 (.inl rfl) rfl (ix1 r)
      = ∑ k : Fin 2048, p (ix2 r k) := by
  refine (Ideal.multiReduction_add_single p 0x00000000#32 reduces_S256x2048_S256 (.inl rfl) rfl (ix1 r)).trans ?_
  exact Finset.sum_congr rfl fun k _ => congrArg p (lift_row r k)

/-- A length-256 vector as a column. -/
theorem colCast_apply {α : Type} (x : S256.Idx → α) (r : Fin 256) (u : Fin 1) :
    shapeCast S256x1 x shapeCasts_S256_S256x1 (ix2 r u) = x (ix1 r) :=
  shapeCast_apply x shapeCasts_S256_S256x1 _ _ (by
    have hu : u.val = 0 := by omega
    rw [Shape.rowMajor_val_one, Shape.rowMajor_val_two]
    show r.val = r.val * 1 + u.val
    omega)

/-- A column repeated along the keys. -/
theorem colBroadcast_apply {α : Type} (x : S256x1.Idx → α) (r : Fin 256) (k : Fin 2048) :
    broadcastTo S256x2048 x broadcasts_S256x1_S256x2048 (ix2 r k) = x (ix2 r (0 : Fin 1)) := by
  refine broadcastTo_apply x broadcasts_S256x1_S256x2048 (ix2 r k) (ix2 r (0 : Fin 1)) fun ax => ?_
  match ax with
  | ⟨0, _⟩ => rfl
  | ⟨1, _⟩ => rfl

end Cert.KernelIdeal.AttnOps

end
-- ==== Proof.AttnPayload.lean ====
/-
  One head's arithmetic inside the attention body, stage by stage, over the extended reals. From a
  256×64 block of query rows and the 2048×64 key and value rows of the same head: the scores are the
  dot products over the head's sixty-four features times the word of 1/8; a row's weights are
  exp(score − the row's maximum); the row's weights are multiplied by the reciprocal of their sum;
  the context is the weighted sum of the value rows. Then where the head's rows sit: a pair's block
  holds two heads side by side, the first in its columns 0…63, the second in 64…127, and pair k's
  columns are 128·k … 128·k+127 of the 1024 features.
-/
import proofs.«157128_j17892833755600_2_alg».proof.Proof.AttnOps
import proofs.«157128_j17892833755600_2_alg».proof.Proof.HeadCtx
import proofs.«157128_j17892833755600_2_alg».proof.Proof.Gen.KernelIdeal.Skeleton

set_option maxRecDepth 16384

noncomputable section

namespace Cert.KernelIdeal.AttnOps

open Cert.KernelIdeal
open Idealize.ShloMosaic Idealize.ShloMosaic.TcCoe Idealize.ShloMosaic.ValueIdx
open Cert.KernelIdeal.Facts₀

/-! ## The stages -/

/-- Scaled scores of a block of query rows against the key rows. -/
def scoresOf (qh : FVec Ideal S256x64 .bf16) (kh : FVec Ideal S2048x64 .bf16) : FVec Ideal S256x2048 .f32 :=
  mulf (matmul dot_S256x64_S2048x64_S256x2048_1_1_0_0_n_n none qh kh (constant S256x2048 .f32 0x00000000#32)) (broadcast S256x2048 (Scalar.ofBits .f32 0x3E000000#32))

theorem scoresOf_apply (qh : FVec Ideal S256x64 .bf16) (kh : FVec Ideal S2048x64 .bf16) (r : Fin 256) (k : Fin 2048) :
    scoresOf qh kh (ix2 r k) = (∑ j : Fin 64, qh (ix2 r j) * kh (ix2 k j)) * Cert.Attn.eighth := by
  show FloatOps.matmul dot_S256x64_S2048x64_S256x2048_1_1_0_0_n_n none qh kh (constant S256x2048 .f32 0x00000000#32) (ix2 r k) * _ = _
  rw [matQK_apply]
  rfl

/-- The rows' maxima, as a column. -/
def rowMaxCol (sc : FVec Ideal S256x2048 .f32) : FVec Ideal S256x1 .f32 :=
  shapeCast S256x1 (multiReduction .maximumf [1] S256 sc 0xFF800000#32 reduces_S256x2048_S256 (.inl rfl) rfl) shapeCasts_S256_S256x1

theorem rowMaxCol_apply (sc : FVec Ideal S256x2048 .f32) (r : Fin 256) (u : Fin 1) :
    rowMaxCol sc (ix2 r u) = Cert.Attn.rowMax (fun k => sc (ix2 r k)) :=
  (colCast_apply _ r u).trans (rowMax_apply sc r)

/-- The unnormalised weights: exp (score − the row's maximum). -/
def weights (sc : FVec Ideal S256x2048 .f32) (mx : FVec Ideal S256x1 .f32) : FVec Ideal S256x2048 .f32 :=
  exp (subf sc (broadcastTo S256x2048 mx broadcasts_S256x1_S256x2048))

theorem weights_apply (sc : FVec Ideal S256x2048 .f32) (mx : FVec Ideal S256x1 .f32) (r : Fin 256) (k : Fin 2048) :
    weights sc mx (ix2 r k) = Ideal.exp (sc (ix2 r k) - mx (ix2 r (0 : Fin 1))) := by
  show Ideal.exp (sc (ix2 r k) - broadcastTo S256x2048 mx broadcasts_S256x1_S256x2048 (ix2 r k)) = _
  rw [colBroadcast_apply]

/-- The rows' sums of weights, as a column. -/
def sumCol (p : FVec Ideal S256x2048 .f32) : FVec Ideal S256x1 .f32 :=
  shapeCast S256x1 (multiReduction .add [1] S256 p 0x00000000#32 reduces_S256x2048_S256 (.inl rfl) rfl) shapeCasts_S256_S256x1

theorem sumCol_apply (p : FVec Ideal S256x2048 .f32) (r : Fin 256) (u : Fin 1) :
    sumCol p (ix2 r u) = ∑ k : Fin 2048, p (ix2 r k) :=
  (colCast_apply _ r u).trans (rowSum_apply p r)

/-- The weights times the reciprocal of their row's sum. -/
def normed (p : FVec Ideal S256x2048 .f32) (l : FVec Ideal S256x1 .f32) : FVec Ideal S256x2048 .bf16 :=
  truncf .bf16 (mulf p (broadcastTo S256x2048 (divf (broadcast S256x1 (Scalar.ofBits .f32 0x3F800000#32)) l) broadcasts_S256x1_S256x2048)) bitsLt_bf16_f32

theorem normed_apply (p : FVec Ideal S256x2048 .f32) (l : FVec Ideal S256x1 .f32) (r : Fin 256) (k : Fin 2048) :
    normed p l (ix2 r k) = p (ix2 r k) * Ideal.div Cert.Attn.one (l (ix2 r (0 : Fin 1))) := by
  show p (ix2 r k) * broadcastTo S256x2048 (divf (broadcast S256x1 (Scalar.ofBits .f32 0x3F800000#32)) l) broadcasts_S256x1_S256x2048 (ix2 r k) = _
  rw [colBroadcast_apply]
  rfl

/-- The weighted sum of the value rows. -/
def ctxOf (a : FVec Ideal S256x2048 .bf16) (vh : FVec Ideal S2048x64 .bf16) : FVec Ideal S256x64 .bf16 :=
  truncf .bf16 (matmul dot_S256x2048_S2048x64_S256x64_1_0_0_1_n_n none a vh (constant S256x64 .f32 0x00000000#32)) bitsLt_bf16_f32

theorem ctxOf_apply (a : FVec Ideal S256x2048 .bf16) (vh : FVec Ideal S2048x64 .bf16) (r : Fin 256) (d : Fin 64) :
    ctxOf a vh (ix2 r d) = ∑ k : Fin 2048, a (ix2 r k) * vh (ix2 k d) :=
  matPV_apply a vh r d

/-- From scores and their rows' maxima to the context. -/
def headOut (sc : FVec Ideal S256x2048 .f32) (mx : FVec Ideal S256x1 .f32) (vh : FVec Ideal S2048x64 .bf16) : FVec Ideal S256x64 .bf16 :=
  ctxOf (normed (weights sc mx) (sumCol (weights sc mx))) vh

/-- A head's context block from its query, key and value blocks, at a row and a coordinate. -/
theorem head_apply (qh : FVec Ideal S256x64 .bf16) (kh vh : FVec Ideal S2048x64 .bf16) (r : Fin 256) (d : Fin 64) :
    headOut (scoresOf qh kh) (rowMaxCol (scoresOf qh kh)) vh (ix2 r d)
      = Cert.Attn.headCtx (fun j => qh (ix2 r j)) (fun k j => kh (ix2 k j)) (fun k j => vh (ix2 k j)) d := by
  unfold headOut Cert.Attn.headCtx
  rw [ctxOf_apply]
  refine Finset.sum_congr rfl fun k _ => ?_
  rw [normed_apply, sumCol_apply, weights_apply, rowMaxCol_apply]
  have hrow : (fun k' => scoresOf qh kh (ix2 r k')) = fun k' => (∑ j : Fin 64, qh (ix2 r j) * kh (ix2 k' j)) * Cert.Attn.eighth :=
    funext fun k' => scoresOf_apply qh kh r k'
  have hsum : (∑ k' : Fin 2048, weights (scoresOf qh kh) (rowMaxCol (scoresOf qh kh)) (ix2 r k'))
      = Cert.Attn.den (fun k' => (∑ j : Fin 64, qh (ix2 r j) * kh (ix2 k' j)) * Cert.Attn.eighth) := by
    unfold Cert.Attn.den Cert.Attn.wt
    refine Finset.sum_congr rfl fun k' _ => ?_
    rw [weights_apply, rowMaxCol_apply, hrow, scoresOf_apply]
  rw [hsum, hrow, scoresOf_apply]
  rfl

/-! ## Where a head's rows sit in a pair's 128 columns -/

/-- The first and the second head's query features of a pair's query block. -/
def qLo (v6 : Vec Ideal S1x256x128 .bf16) : FVec Ideal S256x64 .bf16 :=
  extractStridedSlice S256x64 ![0, 0] (Gen.k3_pay2 (F := Ideal) v6) slices_S256x128_o0_0_S256x64
def qHi (v6 : Vec Ideal S1x256x128 .bf16) : FVec Ideal S256x64 .bf16 :=
  extractStridedSlice S256x64 ![0, 64] (Gen.k3_pay2 (F := Ideal) v6) slices_S256x128_o0_64_S256x64
/-- The first and the second head's features of a pair's key (or value) slab. -/
def kvLo (v : Vec Ideal S1x2048x128 .bf16) : FVec Ideal S2048x64 .bf16 :=
  extractStridedSlice S2048x64 ![0, 0] (Gen.k3_pay3 (F := Ideal) v) slices_S2048x128_o0_0_S2048x64
def kvHi (v : Vec Ideal S1x2048x128 .bf16) : FVec Ideal S2048x64 .bf16 :=
  extractStridedSlice S2048x64 ![0, 64] (Gen.k3_pay3 (F := Ideal) v) slices_S2048x128_o0_64_S2048x64

theorem qLo_apply (v6 : Vec Ideal S1x256x128 .bf16) (r : Fin 256) (j : Fin 64) :
    qLo v6 (ix2 r j) = v6 (ix3 (0 : Fin 1) r (⟨j.val, by omega⟩ : Fin 128)) := by
  unfold qLo
  refine (extractStridedSlice_apply _ _ slices_S256x128_o0_0_S256x64 (ix2 r j)
    (ix2 r (⟨j.val, by omega⟩ : Fin 128)) ?_).trans ?_
  · intro a
    match a with
    | ⟨0, _⟩ => show r.val = 0 + r.val; omega
    | ⟨1, _⟩ => show j.val = 0 + j.val; omega
  · exact shapeCast_1ab_ab_apply v6 shapeCasts_S1x256x128_S256x128 r _

theorem qHi_apply (v6 : Vec Ideal S1x256x128 .bf16) (r : Fin 256) (j : Fin 64) :
    qHi v6 (ix2 r j) = v6 (ix3 (0 : Fin 1) r (⟨64 + j.val, by omega⟩ : Fin 128)) := by
  unfold qHi
  refine (extractStridedSlice_apply _ _ slices_S256x128_o0_64_S256x64 (ix2 r j)
    (ix2 r (⟨64 + j.val, by omega⟩ : Fin 128)) ?_).trans ?_
  · intro a
    match a with
    | ⟨0, _⟩ => show r.val = 0 + r.val; omega
    | ⟨1, _⟩ => show 64 + j.val = 64 + j.val; rfl
  · exact shapeCast_1ab_ab_apply v6 shapeCasts_S1x256x128_S256x128 r _

theorem kvLo_apply (v : Vec Ideal S1x2048x128 .bf16) (k : Fin 2048) (j : Fin 64) :
    kvLo v (ix2 k j) = v (ix3 (0 : Fin 1) k (⟨j.val, by omega⟩ : Fin 128)) := by
  unfold kvLo
  refine (extractStridedSlice_apply _ _ slices_S2048x128_o0_0_S2048x64 (ix2 k j)
    (ix2 k (⟨j.val, by omega⟩ : Fin 128)) ?_).trans ?_
  · intro a
    match a with
    | ⟨0, _⟩ => show k.val = 0 + k.val; omega
    | ⟨1, _⟩ => show j.val = 0 + j.val; omega
  · exact shapeCast_1ab_ab_apply v shapeCasts_S1x2048x128_S2048x128 k _

theorem kvHi_apply (v : Vec Ideal S1x2048x128 .bf16) (k : Fin 2048) (j : Fin 64) :
    kvHi v (ix2 k j) = v (ix3 (0 : Fin 1) k (⟨64 + j.val, by omega⟩ : Fin 128)) := by
  unfold kvHi
  refine (extractStridedSlice_apply _ _ slices_S2048x128_o0_64_S2048x64 (ix2 k j)
    (ix2 k (⟨64 + j.val, by omega⟩ : Fin 128)) ?_).trans ?_
  · intro a
    match a with
    | ⟨0, _⟩ => show k.val = 0 + k.val; omega
    | ⟨1, _⟩ => show 64 + j.val = 64 + j.val; rfl
  · exact shapeCast_1ab_ab_apply v shapeCasts_S1x2048x128_S2048x128 k _

/-- The first head's context is the stages applied to the first sixty-four columns. -/
theorem pay5_eq (v6 : Vec Ideal S1x256x128 .bf16) (v9 v12 : Vec Ideal S1x2048x128 .bf16) :
    Gen.k3_pay5 (F := Ideal) v6 v9 v12
      = headOut (scoresOf (qLo v6) (kvLo v9)) (rowMaxCol (scoresOf (qLo v6) (kvLo v9))) (kvLo v12) := rfl

/-- The second head's context, from the second sixty-four columns. -/
def secondHead (v6 : Vec Ideal S1x256x128 .bf16) (v9 v12 : Vec Ideal S1x2048x128 .bf16) : FVec Ideal S256x64 .bf16 :=
  headOut (scoresOf (qHi v6) (kvHi v9)) (rowMaxCol (scoresOf (qHi v6) (kvHi v9))) (kvHi v12)

/-- What a trip stores: the two heads' contexts side by side, as a 1×256×128 block. -/
theorem pay1_eq (v6 : Vec Ideal S1x256x128 .bf16) (v9 v12 : Vec Ideal S1x2048x128 .bf16) :
    Gen.k3_pay1 (F := Ideal) (Gen.k3_pay5 v6 v9 v12) (Gen.k3_pay6 v12) (Gen.k3_pay7 v6 v9) (Gen.k3_pay8 v6 v9)
      = shapeCast S1x256x128
          (concatenate S256x128 1 [⟨S256x64, Gen.k3_pay5 (F := Ideal) v6 v9 v12⟩, ⟨S256x64, secondHead v6 v9 v12⟩]
            concatenates_S256x64_S256x64_S256x128_d1) shapeCasts_S256x128_S1x256x128 := rfl

/-- Two 256×64 blocks side by side, read in the first and in the second sixty-four columns. -/
theorem sideBySide_lo (A B : FVec Ideal S256x64 .bf16) (r : Fin 256) (d : Fin 64) :
    shapeCast S1x256x128 (concatenate S256x128 1 [⟨S256x64, A⟩, ⟨S256x64, B⟩] concatenates_S256x64_S256x64_S256x128_d1)
        shapeCasts_S256x128_S1x256x128 (ix3 (0 : Fin 1) r (⟨d.val, by omega⟩ : Fin 128)) = A (ix2 r d) := by
  refine (shapeCast_ab_1ab_apply _ shapeCasts_S256x128_S1x256x128 (0 : Fin 1) r _).trans ?_
  refine concatenate_apply_piece (t := S256x128) 1 [⟨S256x64, A⟩, ⟨S256x64, B⟩] concatenates_S256x64_S256x64_S256x128_d1
    (ix2 r (⟨d.val, by omega⟩ : Fin 128)) 0 (Nat.succ_pos 1) S256x64 A rfl rfl 0 rfl (ix2 r d) ?_ ?_
  · intro b
    match b with
    | ⟨0, _⟩ => intro _; rfl
    | ⟨1, _⟩ => intro h; exact absurd rfl h
  · show 0 + d.val = d.val; omega

theorem sideBySide_hi (A B : FVec Ideal S256x64 .bf16) (r : Fin 256) (d : Fin 64) :
    shapeCast S1x256x128 (concatenate S256x128 1 [⟨S256x64, A⟩, ⟨S256x64, B⟩] concatenates_S256x64_S256x64_S256x128_d1)
        shapeCasts_S256x128_S1x256x128 (ix3 (0 : Fin 1) r (⟨64 + d.val, by omega⟩ : Fin 128)) = B (ix2 r d) := by
  refine (shapeCast_ab_1ab_apply _ shapeCasts_S256x128_S1x256x128 (0 : Fin 1) r _).trans ?_
  refine concatenate_apply_piece (t := S256x128) 1 [⟨S256x64, A⟩, ⟨S256x64, B⟩] concatenates_S256x64_S256x64_S256x128_d1
    (ix2 r (⟨64 + d.val, by omega⟩ : Fin 128)) 1 (Nat.lt_succ_self 1) S256x64 B rfl rfl 64 rfl (ix2 r d) ?_ ?_
  · intro b
    match b with
    | ⟨0, _⟩ => intro _; rfl
    | ⟨1, _⟩ => intro h; exact absurd rfl h
  · show 64 + d.val = 64 + d.val; rfl

/-- The stored block in its first sixty-four columns: the first head's context of the pair's first columns. -/
theorem stored_lo (v6 : Vec Ideal S1x256x128 .bf16) (v9 v12 : Vec Ideal S1x2048x128 .bf16) (r : Fin 256) (d : Fin 64) :
    Gen.k3_pay1 (F := Ideal) (Gen.k3_pay5 v6 v9 v12) (Gen.k3_pay6 v12) (Gen.k3_pay7 v6 v9) (Gen.k3_pay8 v6 v9)
        (ix3 (0 : Fin 1) r (⟨d.val, by omega⟩ : Fin 128))
      = Cert.Attn.headCtx (fun j => v6 (ix3 (0 : Fin 1) r (⟨j.val, by omega⟩ : Fin 128)))
          (fun k j => v9 (ix3 (0 : Fin 1) k (⟨j.val, by omega⟩ : Fin 128)))
          (fun k j => v12 (ix3 (0 : Fin 1) k (⟨j.val, by omega⟩ : Fin 128))) d := by
  rw [pay1_eq, sideBySide_lo, pay5_eq, head_apply]
  simp only [qLo_apply, kvLo_apply]

/-- In its last sixty-four columns: the second head's. -/
theorem stored_hi (v6 : Vec Ideal S1x256x128 .bf16) (v9 v12 : Vec Ideal S1x2048x128 .bf16) (r : Fin 256) (d : Fin 64) :
    Gen.k3_pay1 (F := Ideal) (Gen.k3_pay5 v6 v9 v12) (Gen.k3_pay6 v12) (Gen.k3_pay7 v6 v9) (Gen.k3_pay8 v6 v9)
        (ix3 (0 : Fin 1) r (⟨64 + d.val, by omega⟩ : Fin 128))
      = Cert.Attn.headCtx (fun j => v6 (ix3 (0 : Fin 1) r (⟨64 + j.val, by omega⟩ : Fin 128)))
          (fun k j => v9 (ix3 (0 : Fin 1) k (⟨64 + j.val, by omega⟩ : Fin 128)))
          (fun k j => v12 (ix3 (0 : Fin 1) k (⟨64 + j.val, by omega⟩ : Fin 128))) d := by
  rw [pay1_eq, sideBySide_hi]
  unfold secondHead
  rw [head_apply]
  simp only [qHi_apply, kvHi_apply]

end Cert.KernelIdeal.AttnOps

end
-- ==== Proof.AttnBlock.lean ====
/-
  The attention region's output block at one position. Position (row r, feature e) of the block lies
  in pair e / 128, at local column e % 128; local columns 0…63 are the pair's first head, 64…127 its
  second. Either way the head is e / 64 and the coordinate e % 64, the head's features are columns
  (e / 64)·64 … (e / 64)·64 + 63 of the three input blocks, and the value is that head's context of
  query row r against all key and value rows of the slab.
-/
import proofs.«157128_j17892833755600_2_alg».proof.Proof.AttnPieces
import proofs.«157128_j17892833755600_2_alg».proof.Proof.AttnPayload

set_option maxRecDepth 16384

noncomputable section

namespace Cert.KernelIdeal.AttnRegion

open Cert.KernelIdeal Cert.KernelIdeal.Gen
open Idealize.ShloMosaic Idealize.ShloMosaic.TcCoe Idealize.ShloMosaic.ValueIdx
open Cert.KernelIdeal.AttnOps

/-- Feature number of local column c of pair k. -/
def colAt (k : Fin k3_t1_loop.trips) (c : Fin 128) : Fin 1024 :=
  ⟨128 * k.val + c.val, by have h : k.val < 8 := Nat.lt_of_lt_of_eq k.isLt trips_eq; have h' := c.isLt; omega⟩

/-- Pair k's columns of the query block, read at a row and a local column. -/
theorem ld_q (x0 : Vec Ideal S1x256x1024 .bf16) (k : Fin k3_t1_loop.trips) (r : Fin 256) (c : Fin 128) :
    View.ld x0 (qCols k) (ix3 (0 : Fin 1) r c) = x0 (ix3 (0 : Fin 1) r (colAt k c)) := by
  show x0 ((qCols k).idx (ix3 (0 : Fin 1) r c)) = _
  refine congrArg x0 (funext fun a => Fin.ext ?_)
  match a with
  | ⟨0, _⟩ => show k3_off1 k 0 + 1 * 0 = 0; rw [off1_eq k 0]; rfl
  | ⟨1, _⟩ => show k3_off1 k 1 + 1 * r.val = r.val; rw [off1_eq k 1]; show 0 + 1 * r.val = r.val; omega
  | ⟨2, _⟩ => show k3_off1 k 2 + 1 * c.val = 128 * k.val + c.val; rw [off1_eq k 2]; show 128 * k.val + 1 * c.val = _; omega

/-- Pair k's columns of a key or value slab, read at a key row and a local column. -/
theorem ld_kv (x : Vec Ideal S1x2048x1024 .bf16) (k : Fin k3_t1_loop.trips) (s : Fin 2048) (c : Fin 128) :
    View.ld x (kvCols k) (ix3 (0 : Fin 1) s c) = x (ix3 (0 : Fin 1) s (colAt k c)) := by
  show x ((kvCols k).idx (ix3 (0 : Fin 1) s c)) = _
  refine congrArg x (funext fun a => Fin.ext ?_)
  match a with
  | ⟨0, _⟩ => show k3_off2 k 0 + 1 * 0 = 0; rw [off2_eq k 0]; rfl
  | ⟨1, _⟩ => show k3_off2 k 1 + 1 * s.val = s.val; rw [off2_eq k 1]; show 0 + 1 * s.val = s.val; omega
  | ⟨2, _⟩ => show k3_off2 k 2 + 1 * c.val = 128 * k.val + c.val; rw [off2_eq k 2]; show 128 * k.val + 1 * c.val = _; omega

/-- The pair's block in its first head's columns. -/
theorem pairBlock_lo (x0 : Vec Ideal S1x256x1024 .bf16) (x1 x2 : Vec Ideal S1x2048x1024 .bf16) (k : Fin k3_t1_loop.trips)
    (r : Fin 256) (d : Fin 64) :
    pairBlock x0 x1 x2 k (ix3 (0 : Fin 1) r (⟨d.val, by omega⟩ : Fin 128))
      = Cert.Attn.headCtx (fun j => x0 (ix3 (0 : Fin 1) r (colAt k (⟨j.val, by omega⟩ : Fin 128))))
          (fun s j => x1 (ix3 (0 : Fin 1) s (colAt k (⟨j.val, by omega⟩ : Fin 128))))
          (fun s j => x2 (ix3 (0 : Fin 1) s (colAt k (⟨j.val, by omega⟩ : Fin 128)))) d := by
  unfold pairBlock
  rw [stored_lo]
  have e0 : (fun j : Fin 64 => View.ld x0 (qCols k) (ix3 (0 : Fin 1) r (⟨j.val, by omega⟩ : Fin 128)))
      = fun j : Fin 64 => x0 (ix3 (0 : Fin 1) r (colAt k (⟨j.val, by omega⟩ : Fin 128))) := funext fun j => ld_q x0 k r _
  have e1 : (fun (s : Fin 2048) (j : Fin 64) => View.ld x1 (kvCols k) (ix3 (0 : Fin 1) s (⟨j.val, by omega⟩ : Fin 128)))
      = fun (s : Fin 2048) (j : Fin 64) => x1 (ix3 (0 : Fin 1) s (colAt k (⟨j.val, by omega⟩ : Fin 128))) :=
    funext fun s => funext fun j => ld_kv x1 k s _
  have e2 : (fun (s : Fin 2048) (j : Fin 64) => View.ld x2 (kvCols k) (ix3 (0 : Fin 1) s (⟨j.val, by omega⟩ : Fin 128)))
      = fun (s : Fin 2048) (j : Fin 64) => x2 (ix3 (0 : Fin 1) s (colAt k (⟨j.val, by omega⟩ : Fin 128))) :=
    funext fun s => funext fun j => ld_kv x2 k s _
  exact (congrArg (fun f => Cert.Attn.headCtx f _ _ d) e0).trans
    ((congrArg (fun f => Cert.Attn.headCtx _ f _ d) e1).trans (congrArg (fun f => Cert.Attn.headCtx _ _ f d) e2))

/-- The pair's block in its second head's columns. -/
theorem pairBlock_hi (x0 : Vec Ideal S1x256x1024 .bf16) (x1 x2 : Vec Ideal S1x2048x1024 .bf16) (k : Fin k3_t1_loop.trips)
    (r : Fin 256) (d : Fin 64) :
    pairBlock x0 x1 x2 k (ix3 (0 : Fin 1) r (⟨64 + d.val, by omega⟩ : Fin 128))
      = Cert.Attn.headCtx (fun j => x0 (ix3 (0 : Fin 1) r (colAt k (⟨64 + j.val, by omega⟩ : Fin 128))))
          (fun s j => x1 (ix3 (0 : Fin 1) s (colAt k (⟨64 + j.val, by omega⟩ : Fin 128))))
          (fun s j => x2 (ix3 (0 : Fin 1) s (colAt k (⟨64 + j.val, by omega⟩ : Fin 128)))) d := by
  unfold pairBlock
  rw [stored_hi]
  have e0 : (fun j : Fin 64 => View.ld x0 (qCols k) (ix3 (0 : Fin 1) r (⟨64 + j.val, by omega⟩ : Fin 128)))
      = fun j : Fin 64 => x0 (ix3 (0 : Fin 1) r (colAt k (⟨64 + j.val, by omega⟩ : Fin 128))) := funext fun j => ld_q x0 k r _
  have e1 : (fun (s : Fin 2048) (j : Fin 64) => View.ld x1 (kvCols k) (ix3 (0 : Fin 1) s (⟨64 + j.val, by omega⟩ : Fin 128)))
      = fun (s : Fin 2048) (j : Fin 64) => x1 (ix3 (0 : Fin 1) s (colAt k (⟨64 + j.val, by omega⟩ : Fin 128))) :=
    funext fun s => funext fun j => ld_kv x1 k s _
  have e2 : (fun (s : Fin 2048) (j : Fin 64) => View.ld x2 (kvCols k) (ix3 (0 : Fin 1) s (⟨64 + j.val, by omega⟩ : Fin 128)))
      = fun (s : Fin 2048) (j : Fin 64) => x2 (ix3 (0 : Fin 1) s (colAt k (⟨64 + j.val, by omega⟩ : Fin 128))) :=
    funext fun s => funext fun j => ld_kv x2 k s _
  exact (congrArg (fun f => Cert.Attn.headCtx f _ _ d) e0).trans
    ((congrArg (fun f => Cert.Attn.headCtx _ f _ d) e1).trans (congrArg (fun f => Cert.Attn.headCtx _ _ f d) e2))

/-- The output block at row r, feature e: the context of head e / 64 at coordinate e % 64, of query row r
    against the slab's key and value rows, over that head's features of the three blocks. -/
theorem blockOf_apply (x0 : Vec Ideal S1x256x1024 .bf16) (x1 x2 : Vec Ideal S1x2048x1024 .bf16) (r : Fin 256) (e : Fin 1024) :
    blockOf x0 x1 x2 (ix3 (0 : Fin 1) r e)
      = Cert.Attn.headCtx (fun j => x0 (ix3 (0 : Fin 1) r (Cert.Attn.col (Cert.Attn.headOf e) j)))
          (fun s j => x1 (ix3 (0 : Fin 1) s (Cert.Attn.col (Cert.Attn.headOf e) j)))
          (fun s j => x2 (ix3 (0 : Fin 1) s (Cert.Attn.col (Cert.Attn.headOf e) j))) (Cert.Attn.coordOf e) := by
  have he : e.val < 1024 := e.isLt
  unfold blockOf
  by_cases hlt : e.val % 128 < 64
  · have hin : inPair (ix3 (0 : Fin 1) r e)
        = ix3 (0 : Fin 1) r (⟨(⟨e.val % 128, hlt⟩ : Fin 64).val, by omega⟩ : Fin 128) := rfl
    rw [hin, pairBlock_lo]
    have hcol : ∀ j : Fin 64, colAt (pairOf (ix3 (0 : Fin 1) r e)) (⟨j.val, by omega⟩ : Fin 128) = Cert.Attn.col (Cert.Attn.headOf e) j :=
      fun j => Fin.ext (by
        have hj := j.isLt
        show 128 * (e.val / 128) + j.val = e.val / 64 * 64 + j.val
        omega)
    have hd : (⟨e.val % 128, hlt⟩ : Fin 64) = Cert.Attn.coordOf e :=
      Fin.ext (by show e.val % 128 = e.val % 64; omega)
    simp only [hcol, hd]
  · have hge : 64 ≤ e.val % 128 := Nat.le_of_not_lt hlt
    have hm : e.val % 128 < 128 := Nat.mod_lt _ (by decide)
    have hin : inPair (ix3 (0 : Fin 1) r e)
        = ix3 (0 : Fin 1) r (⟨64 + (⟨e.val % 128 - 64, by omega⟩ : Fin 64).val, by omega⟩ : Fin 128) := by
      unfold inPair
      refine congrArg (ix3 (0 : Fin 1) r) (Fin.ext ?_)
      show e.val % 128 = 64 + (e.val % 128 - 64)
      omega
    rw [hin, pairBlock_hi]
    have hcol : ∀ j : Fin 64, colAt (pairOf (ix3 (0 : Fin 1) r e)) (⟨64 + j.val, by omega⟩ : Fin 128) = Cert.Attn.col (Cert.Attn.headOf e) j :=
      fun j => Fin.ext (by
        have hj := j.isLt
        show 128 * (e.val / 128) + (64 + j.val) = e.val / 64 * 64 + j.val
        omega)
    have hd : (⟨e.val % 128 - 64, by omega⟩ : Fin 64) = Cert.Attn.coordOf e :=
      Fin.ext (by show e.val % 128 - 64 = e.val % 64; omega)
    simp only [hcol, hd]

end Cert.KernelIdeal.AttnRegion

end
-- ==== Proof.RefAttn.lean ====
/-
  The reference computation, read stage by stage at an index, is multi-head attention as the
  specification states it (the arrangement that divides by √64 and by the sum of the weights).

  Coordinates. A projected activation y(b, s, e) is regrouped to (b, s, h, d) with e = h·64 + d
  (row-major flattening of the last two axes) and transposed to (b, h, s, d); so the head-split
  operand at (b, h, s, d) is the linear layer at batch b, position s, feature h·64 + d. The score
  of query s and key k in head h is the sum over the sixty-four coordinates d of the products of
  those entries, divided by the square root of the word of 64. The row maximum is taken from −∞
  and once more against −∞, which changes nothing; the weights are exp(score − maximum), their
  sum starts from the zero word, which adds nothing; the normalised weights multiply the value
  rows; the result at (b, h, s, d) is moved back to (b, s, h·64 + d), where for a feature e the
  head is e / 64 and the coordinate e % 64; the last linear layer is applied to that array.
  No identity of arithmetic is used beyond max ⊥ x = x and 0 + x = x: quotients, the square root
  and the exponential stand on both sides as the same terms.
-/
import proofs.«157128_j17892833755600_2_alg».proof.Proof.Gen.ReferenceIdeal.Read
import proofs.«157128_j17892833755600_2_alg».proof.Proof.Spec
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Cert.Attn

/-- An activation argument and a weight argument, as the program types them. -/
abbrev Act := (⟨S2x2048x1024, .f32⟩ : BufTy).Contents (Elt Ideal)
abbrev Wgt := (⟨S1024x1024, .f32⟩ : BufTy).Contents (Elt Ideal)
/-- A score-shaped array: batch × head × query × key. -/
abbrev Sc := (⟨S2x16x2048x2048, .f32⟩ : BufTy).Contents (Elt Ideal)

/-! ## Index equations -/

/-- (b, h, s, d) of the head-split array is entry (b, s, h·64 + d) of the projected one: the
    row-major position ((b·2048 + s)·16 + h)·64 + d is (b·2048 + s)·1024 + (h·64 + d). -/
theorem split_q (b : Fin 2) (h : Fin 16) (s : Fin 2048) (d : Fin 64) :
    idx_main_v1 (idx_main_v2 (ix4 b h s d)) = ix3 b s (col h d) := by
  funext a
  have hb := b.isLt; have hh := h.isLt; have hs := s.isLt; have hd := d.isLt
  match a with
  | ⟨0, _⟩ => exact Fin.ext (by show (((b.val * 2048 + s.val) * 16 + h.val) * 64 + d.val) / 2097152 = b.val; omega)
  | ⟨1, _⟩ => exact Fin.ext (by show (((b.val * 2048 + s.val) * 16 + h.val) * 64 + d.val) / 1024 % 2048 = s.val; omega)
  | ⟨2, _⟩ => exact Fin.ext (by show (((b.val * 2048 + s.val) * 16 + h.val) * 64 + d.val) % 1024 = h.val * 64 + d.val; omega)

theorem split_k (b : Fin 2) (h : Fin 16) (s : Fin 2048) (d : Fin 64) :
    idx_main_v4 (idx_main_v5 (ix4 b h s d)) = ix3 b s (col h d) := by
  funext a
  have hb := b.isLt; have hh := h.isLt; have hs := s.isLt; have hd := d.isLt
  match a with
  | ⟨0, _⟩ => exact Fin.ext (by show (((b.val * 2048 + s.val) * 16 + h.val) * 64 + d.val) / 2097152 = b.val; omega)
  | ⟨1, _⟩ => exact Fin.ext (by show (((b.val * 2048 + s.val) * 16 + h.val) * 64 + d.val) / 1024 % 2048 = s.val; omega)
  | ⟨2, _⟩ => exact Fin.ext (by show (((b.val * 2048 + s.val) * 16 + h.val) * 64 + d.val) % 1024 = h.val * 64 + d.val; omega)

theorem split_v (b : Fin 2) (h : Fin 16) (s : Fin 2048) (d : Fin 64) :
    idx_main_v7 (idx_main_v8 (ix4 b h s d)) = ix3 b s (col h d) := by
  funext a
  have hb := b.isLt; have hh := h.isLt; have hs := s.isLt; have hd := d.isLt
  match a with
  | ⟨0, _⟩ => exact Fin.ext (by show (((b.val * 2048 + s.val) * 16 + h.val) * 64 + d.val) / 2097152 = b.val; omega)
  | ⟨1, _⟩ => exact Fin.ext (by show (((b.val * 2048 + s.val) * 16 + h.val) * 64 + d.val) / 1024 % 2048 = s.val; omega)
  | ⟨2, _⟩ => exact Fin.ext (by show (((b.val * 2048 + s.val) * 16 + h.val) * 64 + d.val) % 1024 = h.val * 64 + d.val; omega)

/-- The operands of a linear layer's sum at (b, s, e): x(b, s, k) and W(e, k). -/
theorem lin_l_q (b : Fin 2) (s : Fin 2048) (e k : Fin 1024) : lidx_main_v0 (ix3 b s e) k = ix3 b s k :=
  funext fun a => by match a with | ⟨0, _⟩ => rfl | ⟨1, _⟩ => rfl | ⟨2, _⟩ => rfl
theorem lin_r_q (b : Fin 2) (s : Fin 2048) (e k : Fin 1024) : ridx_main_v0 (ix3 b s e) k = ix2 e k :=
  funext fun a => by match a with | ⟨0, _⟩ => rfl | ⟨1, _⟩ => rfl
theorem lin_l_k (b : Fin 2) (s : Fin 2048) (e k : Fin 1024) : lidx_main_v3 (ix3 b s e) k = ix3 b s k :=
  funext fun a => by match a with | ⟨0, _⟩ => rfl | ⟨1, _⟩ => rfl | ⟨2, _⟩ => rfl
theorem lin_r_k (b : Fin 2) (s : Fin 2048) (e k : Fin 1024) : ridx_main_v3 (ix3 b s e) k = ix2 e k :=
  funext fun a => by match a with | ⟨0, _⟩ => rfl | ⟨1, _⟩ => rfl
theorem lin_l_v (b : Fin 2) (s : Fin 2048) (e k : Fin 1024) : lidx_main_v6 (ix3 b s e) k = ix3 b s k :=
  funext fun a => by match a with | ⟨0, _⟩ => rfl | ⟨1, _⟩ => rfl | ⟨2, _⟩ => rfl
theorem lin_r_v (b : Fin 2) (s : Fin 2048) (e k : Fin 1024) : ridx_main_v6 (ix3 b s e) k = ix2 e k :=
  funext fun a => by match a with | ⟨0, _⟩ => rfl | ⟨1, _⟩ => rfl
theorem lin_l_o (b : Fin 2) (s : Fin 2048) (e k : Fin 1024) : lidx_main_v27 (ix3 b s e) k = ix3 b s k :=
  funext fun a => by match a with | ⟨0, _⟩ => rfl | ⟨1, _⟩ => rfl | ⟨2, _⟩ => rfl
theorem lin_r_o (b : Fin 2) (s : Fin 2048) (e k : Fin 1024) : ridx_main_v27 (ix3 b s e) k = ix2 e k :=
  funext fun a => by match a with | ⟨0, _⟩ => rfl | ⟨1, _⟩ => rfl

/-- The operands of a score's sum at (b, h, s, k): the query row (b, h, s, ·) and the key row (b, h, k, ·). -/
theorem score_l (b : Fin 2) (h : Fin 16) (s k : Fin 2048) (d : Fin 64) : lidx_main_v9 (ix4 b h s k) d = ix4 b h s d :=
  funext fun a => by match a with | ⟨0, _⟩ => rfl | ⟨1, _⟩ => rfl | ⟨2, _⟩ => rfl | ⟨3, _⟩ => rfl
theorem score_r (b : Fin 2) (h : Fin 16) (s k : Fin 2048) (d : Fin 64) : ridx_main_v9 (ix4 b h s k) d = ix4 b h k d :=
  funext fun a => by match a with | ⟨0, _⟩ => rfl | ⟨1, _⟩ => rfl | ⟨2, _⟩ => rfl | ⟨3, _⟩ => rfl

/-- A per-row quantity kept as a column and spread along the keys is read at the row (b, h, s). -/
theorem row_of_max (b : Fin 2) (h : Fin 16) (s k : Fin 2048) : idx_main_v16 (idx_main_v17 (ix4 b h s k)) = ix3 b h s :=
  funext fun a => by match a with | ⟨0, _⟩ => rfl | ⟨1, _⟩ => rfl | ⟨2, _⟩ => rfl
theorem row_of_sum (b : Fin 2) (h : Fin 16) (s k : Fin 2048) : idx_main_v21 (idx_main_v22 (ix4 b h s k)) = ix3 b h s :=
  funext fun a => by match a with | ⟨0, _⟩ => rfl | ⟨1, _⟩ => rfl | ⟨2, _⟩ => rfl

/-- The k-th term of the sum over the keys of row (b, h, s). -/
theorem sum_term (b : Fin 2) (h : Fin 16) (s k : Fin 2048) : idx_main_v20 (ix3 b h s) k = ix4 b h s k :=
  funext fun a => by match a with | ⟨0, _⟩ => rfl | ⟨1, _⟩ => rfl | ⟨2, _⟩ => rfl | ⟨3, _⟩ => rfl

/-- The operands of a context's sum at (b, h, s, d): weight (b, h, s, k) and value (b, h, k, d). -/
theorem ctx_l (b : Fin 2) (h : Fin 16) (s : Fin 2048) (d : Fin 64) (k : Fin 2048) : lidx_main_v24 (ix4 b h s d) k = ix4 b h s k :=
  funext fun a => by match a with | ⟨0, _⟩ => rfl | ⟨1, _⟩ => rfl | ⟨2, _⟩ => rfl | ⟨3, _⟩ => rfl
theorem ctx_r (b : Fin 2) (h : Fin 16) (s : Fin 2048) (d : Fin 64) (k : Fin 2048) : ridx_main_v24 (ix4 b h s d) k = ix4 b h k d :=
  funext fun a => by match a with | ⟨0, _⟩ => rfl | ⟨1, _⟩ => rfl | ⟨2, _⟩ => rfl | ⟨3, _⟩ => rfl

/-- Entry (b, s, e) of the merged array is entry (b, e / 64, s, e % 64) of the per-head one: the
    row-major position (b·2048 + s)·1024 + e is ((b·2048 + s)·16 + e / 64)·64 + e % 64. -/
theorem merge_idx (b : Fin 2) (s : Fin 2048) (e : Fin 1024) :
    idx_main_v25 (idx_main_v26 (ix3 b s e)) = ix4 b (headOf e) s (coordOf e) := by
  funext a
  have hb := b.isLt; have hs := s.isLt; have he := e.isLt
  match a with
  | ⟨0, _⟩ => exact Fin.ext (by show ((b.val * 2048 + s.val) * 1024 + e.val) / 2097152 = b.val; omega)
  | ⟨1, _⟩ => exact Fin.ext (by show ((b.val * 2048 + s.val) * 1024 + e.val) / 64 % 16 = e.val / 64; omega)
  | ⟨2, _⟩ => exact Fin.ext (by show ((b.val * 2048 + s.val) * 1024 + e.val) / 1024 % 2048 = s.val; omega)
  | ⟨3, _⟩ => exact Fin.ext (by show ((b.val * 2048 + s.val) * 1024 + e.val) % 64 = e.val % 64; omega)

/-! ## The three projections, split into heads -/

theorem proj_q (x : Act) (W : Wgt) (b : Fin 2) (h : Fin 16) (s : Fin 2048) (d : Fin 64) :
    val_main_v2 (F := Ideal) x W (ix4 b h s d) = proj x W b s (col h d) := by
  rw [val_main_v2_apply, val_main_v1_apply, val_main_v0_apply, split_q]
  unfold proj
  exact Finset.sum_congr rfl fun k _ => by rw [lin_l_q, lin_r_q]

theorem proj_k (x : Act) (W : Wgt) (b : Fin 2) (h : Fin 16) (s : Fin 2048) (d : Fin 64) :
    val_main_v5 (F := Ideal) x W (ix4 b h s d) = proj x W b s (col h d) := by
  rw [val_main_v5_apply, val_main_v4_apply, val_main_v3_apply, split_k]
  unfold proj
  exact Finset.sum_congr rfl fun k _ => by rw [lin_l_k, lin_r_k]

theorem proj_v (x : Act) (W : Wgt) (b : Fin 2) (h : Fin 16) (s : Fin 2048) (d : Fin 64) :
    val_main_v8 (F := Ideal) x W (ix4 b h s d) = proj x W b s (col h d) := by
  rw [val_main_v8_apply, val_main_v7_apply, val_main_v6_apply, split_v]
  unfold proj
  exact Finset.sum_congr rfl fun k _ => by rw [lin_l_v, lin_r_v]

/-! ## Scores -/

/-- The scale, spread over the score array, is the square root of the word of 64 everywhere. -/
theorem scale_eq (i : S2x16x2048x2048.Idx) : val_main_v11 (F := Ideal) i = root64 := by
  rw [val_main_v11_apply, val_main_v10_apply, val_main_cst_apply, Ideal.hostUnary_sqrt_def, Ideal.ofBits_def]
  rfl

theorem score_eq (x0 x1 : Act) (x3 x4 : Wgt) (b : Fin 2) (h : Fin 16) (s k : Fin 2048) :
    val_main_v12 (F := Ideal) x0 x1 x3 x4 (ix4 b h s k) = scoreDiv (projArr x0 x3) (projArr x1 x4) b h s k := by
  rw [val_main_v12_apply, val_main_v9_apply, scale_eq, Ideal.hostDivf_def]
  unfold scoreDiv dotHead
  refine congrArg (fun t => Ideal.div t root64) (Finset.sum_congr rfl fun d _ => ?_)
  rw [score_l, score_r, proj_q, proj_k]
  rfl

/-! ## The row maximum -/

/-- The word 0xFF800000 is −∞. -/
theorem negInf_eq : Ideal.ofBits .f32 0xFF800000#32 = (⊥ : EReal) := by simp [Ideal.ofBits, Ideal.ieee]

theorem reduces_keys : S2x16x2048x2048.Reduces [3] S2x16x2048 := by decide

/-- Row (b, h, s) with key coordinate k put back is (b, h, s, k). -/
theorem lift_row (b : Fin 2) (h : Fin 16) (s : Fin 2048) (k : Fin (S2x16x2048x2048.size 3)) :
    reduces_keys.lift (ix3 b h s) k = ix4 b h s (⟨k.val, k.isLt⟩ : Fin 2048) := by
  funext c; apply Fin.ext
  fin_cases c <;> rfl

/-- A maximum-reduce over the key axis from the −∞ word, at row (b, h, s), is the maximum of the
    row's entries from −∞. -/
theorem reduceMax_row (y : Sc) (b : Fin 2) (h : Fin 16) (s : Fin 2048) :
    Host.reduce (FloatOps.maximumf (F := Ideal) (φ := .f32)) y (val_main_cst_0 (F := Ideal)) reducesTo_S2x16x2048x2048_S2x16x2048_d3 h_S_ (ix3 b h s)
      = rowMax fun k => y (ix4 b h s k) := by
  rw [Host.reduce_eq_fold_single (FloatOps.maximumf (F := Ideal) (φ := .f32)) y _ reducesTo_S2x16x2048x2048_S2x16x2048_d3 reduces_keys h_S_]
  have hf : (y ∘ reduces_keys.lift (ix3 b h s)) = fun k : Fin 2048 => y (ix4 b h s k) :=
    funext fun k => congrArg y (lift_row b h s k)
  show Finset.fold max (Ideal.ofBits .f32 0xFF800000#32) (y ∘ reduces_keys.lift (ix3 b h s)) (Finset.univ : Finset (Fin 2048)) = _
  rw [hf, negInf_eq]
  rfl

theorem max_eq (x0 x1 : Act) (x3 x4 : Wgt) (b : Fin 2) (h : Fin 16) (s : Fin 2048) :
    val_main_v15 (F := Ideal) x0 x1 x3 x4 (ix3 b h s)
      = rowMax fun k => val_main_v12 (F := Ideal) x0 x1 x3 x4 (ix4 b h s k) := by
  rw [val_main_v15_apply, val_main_v14_apply, val_main_cst_1_apply, Ideal.ofBits_def, Ideal.maximumf_def, negInf_eq]
  unfold val_main_v13
  rw [reduceMax_row]
  exact max_bot_left _

/-! ## Weights, their sum, the normalised weights -/

theorem weight_eq (x0 x1 : Act) (x3 x4 : Wgt) (b : Fin 2) (h : Fin 16) (s k : Fin 2048) :
    val_main_v19 (F := Ideal) x0 x1 x3 x4 (ix4 b h s k)
      = wt (fun k' => val_main_v12 (F := Ideal) x0 x1 x3 x4 (ix4 b h s k')) k := by
  rw [val_main_v19_apply, val_main_v18_apply, val_main_v17_apply, val_main_v16_apply, row_of_max, max_eq,
    Ideal.hostUnary_exp_def, Ideal.subf_def]
  rfl

theorem den_eq (x0 x1 : Act) (x3 x4 : Wgt) (b : Fin 2) (h : Fin 16) (s : Fin 2048) :
    val_main_v20 (F := Ideal) x0 x1 x3 x4 (ix3 b h s)
      = den (fun k' => val_main_v12 (F := Ideal) x0 x1 x3 x4 (ix4 b h s k')) := by
  rw [val_main_v20_apply, val_main_cst_2_apply, Ideal.ofBits_def, Ideal.ofBits_zero_f32, zero_add]
  unfold den
  exact Finset.sum_congr rfl fun k _ => by rw [sum_term, weight_eq]

theorem nweight_eq (x0 x1 : Act) (x3 x4 : Wgt) (b : Fin 2) (h : Fin 16) (s k : Fin 2048) :
    val_main_v23 (F := Ideal) x0 x1 x3 x4 (ix4 b h s k)
      = Ideal.div (wt (fun k' => val_main_v12 (F := Ideal) x0 x1 x3 x4 (ix4 b h s k')) k)
          (den (fun k' => val_main_v12 (F := Ideal) x0 x1 x3 x4 (ix4 b h s k'))) := by
  rw [val_main_v23_apply, val_main_v22_apply, val_main_v21_apply, row_of_sum, den_eq, weight_eq, Ideal.hostDivf_def]

/-! ## Context, merge, last layer -/

theorem ctx_eq (x0 x1 x2 : Act) (x3 x4 x5 : Wgt) (b : Fin 2) (h : Fin 16) (s : Fin 2048) (d : Fin 64) :
    val_main_v24 (F := Ideal) x0 x1 x2 x3 x4 x5 (ix4 b h s d)
      = ctxDiv (projArr x0 x3) (projArr x1 x4) (projArr x2 x5) b s h d := by
  have hsc : (fun k' => val_main_v12 (F := Ideal) x0 x1 x3 x4 (ix4 b h s k'))
      = scoreDiv (projArr x0 x3) (projArr x1 x4) b h s := funext fun k' => score_eq x0 x1 x3 x4 b h s k'
  rw [val_main_v24_apply]
  unfold ctxDiv
  refine Finset.sum_congr rfl fun k _ => ?_
  rw [ctx_l, ctx_r, nweight_eq, proj_v, hsc]
  rfl

theorem merge_eq (x0 x1 x2 : Act) (x3 x4 x5 : Wgt) (i : S2x2048x1024.Idx) :
    val_main_v26 (F := Ideal) x0 x1 x2 x3 x4 x5 i
      = ctxArrDiv (projArr x0 x3) (projArr x1 x4) (projArr x2 x5) i := by
  obtain ⟨b, s, e, rfl⟩ : ∃ (b : Fin 2) (s : Fin 2048) (e : Fin 1024), i = ix3 b s e := ⟨i 0, i 1, i 2, eq_ix3 i⟩
  rw [val_main_v26_apply, val_main_v25_apply, merge_idx, ctx_eq]
  rfl

/-- The reference's result is attention with the divisions, as a function of the seven arguments. -/
theorem result_eq (x0 x1 x2 : (⟨S2x2048x1024, .f32⟩ : BufTy).Contents (Elt Ideal))
    (x3 x4 x5 x6 : (⟨S1024x1024, .f32⟩ : BufTy).Contents (Elt Ideal)) :
    Cert.ReferenceIdeal.Read.val_main_v27 (F := Ideal) x0 x1 x2 x3 x4 x5 x6 = Cert.Attn.attnDiv x0 x1 x2 x3 x4 x5 x6 := by
  funext i
  obtain ⟨b, s, e, rfl⟩ : ∃ (b : Fin 2) (s : Fin 2048) (e : Fin 1024), i = ix3 b s e := ⟨i 0, i 1, i 2, eq_ix3 i⟩
  have hm : val_main_v26 (F := Ideal) x0 x1 x2 x3 x4 x5
      = ctxArrDiv (projArr x0 x3) (projArr x1 x4) (projArr x2 x5) := funext fun j => merge_eq x0 x1 x2 x3 x4 x5 j
  rw [val_main_v27_apply, hm]
  show _ = ∑ k : Fin 1024, ctxArrDiv (projArr x0 x3) (projArr x1 x4) (projArr x2 x5) (ix3 b s k) * x6 (ix2 e k)
  exact Finset.sum_congr rfl fun k _ => by rw [lin_l_o, lin_r_o]

end Cert.ReferenceIdeal.RefValue

end
-- ==== Proof.SpecLaws.lean ====
/-
  The two arrangements of the attention arithmetic agree when the score inputs are real numbers.

  Dividing by √64 and multiplying by 1/8 are the same map of the extended reals. A finite sum of products of
  real numbers is a real number, so every score is real. In a row of real scores the row maximum is one of the
  scores, so the weight there is exp 0 = 1; every weight is ≥ 0; hence the row's sum of weights is ≥ 1, in
  particular not zero, and dividing by it is multiplying by its reciprocal.
-/
import proofs.«157128_j17892833755600_2_alg».proof.Proof.Spec

noncomputable section

namespace Cert.Attn

open Idealize.ShloMosaic Idealize.ShloMosaic.ValueIdx

/-! ## The scale's two spellings -/

/-- The word 0x42800000 denotes 64. -/
theorem ofBits_64 : Ideal.ofBits .f32 0x42800000#32 = ((64 : ℝ) : EReal) := by
  simp [Ideal.ofBits, Ideal.ieee, -EReal.coe_mul]; norm_num

/-- The word 0x3E000000 denotes 1/8. -/
theorem eighth_eq : eighth = ((1 / 8 : ℝ) : EReal) := by
  unfold eighth
  simp [Ideal.ofBits, Ideal.ieee, -EReal.coe_mul]; norm_num

/-- The word 0x3F800000 denotes 1. -/
theorem one_eq : one = 1 := by
  unfold one
  simp [Ideal.ofBits, Ideal.ieee, -EReal.coe_mul]; norm_num

/-- √64 = 8. -/
theorem root64_eq : root64 = ((8 : ℝ) : EReal) := by
  unfold root64
  rw [ofBits_64, Ideal.sqrt_coe, if_neg (by norm_num)]
  congr 1
  rw [show (64 : ℝ) = 8 * 8 by norm_num, Real.sqrt_mul_self (by norm_num)]

/-- Dividing by √64 is multiplying by 1/8, at every extended real. -/
theorem scoreDiv_eq_scoreMul (Q K : Seq) : scoreDiv Q K = scoreMul Q K := by
  funext b h s k
  unfold scoreDiv scoreMul
  rw [root64_eq, eighth_eq, Ideal.div_coe (by norm_num)]

/-! ## Real numbers are closed under products and finite sums -/

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sum {ι : Type} (s : Finset ι) (f : ι → EReal) (hf : ∀ i ∈ s, ∃ r : ℝ, f i = (r : EReal)) :
    ∃ r : ℝ, ∑ i ∈ s, f i = (r : EReal) := by
  classical
  revert hf
  refine Finset.induction_on s ?_ ?_
  · intro _
    exact ⟨0, by simp⟩
  · intro a s ha ih hf
    obtain ⟨x, hx⟩ := hf a (Finset.mem_insert_self a s)
    obtain ⟨y, hy⟩ := ih (fun i hi => hf i (Finset.mem_insert_of_mem hi))
    exact ⟨x + y, by rw [Finset.sum_insert ha, hx, hy, EReal.coe_add]⟩

theorem proj_real (x : Seq) (W : Mat) (hx : ∀ i, ∃ r : ℝ, x i = (r : EReal)) (hW : ∀ i, ∃ r : ℝ, W i = (r : EReal))
    (b : Fin 2) (s : Fin 2048) (e : Fin 1024) : ∃ r : ℝ, proj x W b s e = (r : EReal) :=
  real_sum _ _ (fun _ _ => real_mul (hx _) (hW _))

theorem projArr_real (x : Seq) (W : Mat) (hx : ∀ i, ∃ r : ℝ, x i = (r : EReal)) (hW : ∀ i, ∃ r : ℝ, W i = (r : EReal)) :
    ∀ i, ∃ r : ℝ, projArr x W i = (r : EReal) :=
  fun _ => proj_real x W hx hW _ _ _

theorem dotHead_real (Q K : Seq) (hQ : ∀ i, ∃ r : ℝ, Q i = (r : EReal)) (hK : ∀ i, ∃ r : ℝ, K i = (r : EReal))
    (b : Fin 2) (h : Fin 16) (s k : Fin 2048) : ∃ r : ℝ, dotHead Q K b h s k = (r : EReal) :=
  real_sum _ _ (fun _ _ => real_mul (hQ _) (hK _))

theorem scoreMul_real (Q K : Seq) (hQ : ∀ i, ∃ r : ℝ, Q i = (r : EReal)) (hK : ∀ i, ∃ r : ℝ, K i = (r : EReal))
    (b : Fin 2) (h : Fin 16) (s k : Fin 2048) : ∃ r : ℝ, scoreMul Q K b h s k = (r : EReal) :=
  real_mul (dotHead_real Q K hQ hK b h s k) ⟨1 / 8, eighth_eq⟩

/-! ## A row of real scores: its sum of weights is not zero -/

/-- Over a nonempty index set the running maximum from −∞ is one of the values. -/
theorem fold_max_mem {ι : Type} (f : ι → EReal) (s : Finset ι) (hs : s.Nonempty) :
    ∃ k ∈ s, s.fold max ⊥ f = f k := by
  classical
  revert hs
  refine Finset.induction_on s ?_ ?_
  · intro hs
    exact absurd hs (by simp)
  · intro a s ha ih _
    rw [Finset.fold_insert ha]
    rcases s.eq_empty_or_nonempty with rfl | hne
    · exact ⟨a, Finset.mem_insert_self _ _, by simp⟩
    · obtain ⟨k, hk, e⟩ := ih hne
      rcases le_total (f a) (s.fold max ⊥ f) with h | h
      · exact ⟨k, Finset.mem_insert_of_mem hk, (max_eq_right h).trans e⟩
      · exact ⟨a, Finset.mem_insert_self _ _, max_eq_left h⟩

/-- exp is ≥ 0 on the extended reals: 0 at −∞, +∞ at +∞, positive on the reals. -/
theorem exp_nonneg (x : EReal) : 0 ≤ Ideal.exp x := by
  induction x using EReal.rec with
  | bot => simp
  | coe r => rw [Ideal.exp_coe]; exact_mod_cast (Real.exp_pos r).le
  | top => simp

/-- In a row of real scores the weight at the row's maximum is 1, so the sum of the weights is at least 1. -/
theorem one_le_den (sc : Fin 2048 → EReal) (hsc : ∀ k, ∃ r : ℝ, sc k = (r : EReal)) : 1 ≤ den sc := by
  obtain ⟨k0, -, hk0⟩ := fold_max_mem sc Finset.univ Finset.univ_nonempty
  have h1 : wt sc k0 = 1 := by
    obtain ⟨r, hr⟩ := hsc k0
    unfold wt rowMax
    rw [hk0, hr, ← EReal.coe_sub, sub_self, Ideal.exp_coe, Real.exp_zero, EReal.coe_one]
  unfold den
  rw [← h1]
  exact Finset.single_le_sum (f := wt sc) (fun k _ => (exp_nonneg (sc k - rowMax sc) : 0 ≤ wt sc k)) (Finset.mem_univ k0)

theorem den_ne_zero (sc : Fin 2048 → EReal) (hsc : ∀ k, ∃ r : ℝ, sc k = (r : EReal)) : den sc ≠ 0 := by
  intro h0
  have h := one_le_den sc hsc
  rw [h0] at h
  exact absurd h (by norm_num)

/-! ## Dividing by a nonzero sum is multiplying by its reciprocal -/

theorem div_eq_mul_div_one {l : EReal} (hl : l ≠ 0) (x : EReal) : Ideal.div x l = x * Ideal.div one l := by
  rw [Ideal.div, if_neg hl, Ideal.div, if_neg hl, one_eq, one_mul]

/-- One head's context in the two arrangements. -/
theorem ctxDiv_eq_ctxMul (Q K V : Seq) (hQ : ∀ i, ∃ r : ℝ, Q i = (r : EReal)) (hK : ∀ i, ∃ r : ℝ, K i = (r : EReal))
    (b : Fin 2) (s : Fin 2048) (h : Fin 16) (d : Fin 64) : ctxDiv Q K V b s h d = ctxMul Q K V b s h d := by
  unfold ctxDiv ctxMul
  rw [scoreDiv_eq_scoreMul]
  have hl := den_ne_zero (scoreMul Q K b h s) (fun k => scoreMul_real Q K hQ hK b h s k)
  refine Finset.sum_congr rfl (fun k _ => ?_)
  rw [div_eq_mul_div_one hl]

theorem ctxArrDiv_eq_ctxArrMul (Q K V : Seq) (hQ : ∀ i, ∃ r : ℝ, Q i = (r : EReal))
    (hK : ∀ i, ∃ r : ℝ, K i = (r : EReal)) : ctxArrDiv Q K V = ctxArrMul Q K V :=
  funext fun _ => ctxDiv_eq_ctxMul Q K V hQ hK _ _ _ _

/-- The two arrangements of attention agree when the query and key inputs and their weights are real. -/
theorem attnDiv_eq_attnMul (q k v : Seq) (Wq Wk Wv Wo : Mat)
    (hq : ∀ i, ∃ x : ℝ, q i = (x : EReal)) (hk : ∀ i, ∃ x : ℝ, k i = (x : EReal))
    (hWq : ∀ i, ∃ x : ℝ, Wq i = (x : EReal)) (hWk : ∀ i, ∃ x : ℝ, Wk i = (x : EReal)) :
    attnDiv q k v Wq Wk Wv Wo = attnMul q k v Wq Wk Wv Wo := by
  unfold attnDiv attnMul
  rw [ctxArrDiv_eq_ctxArrMul _ _ _ (projArr_real q Wq hq hWq) (projArr_real k Wk hk hWk)]

end Cert.Attn

end
-- ==== Proof.FiniteInputs.lean ====
/-
  Finiteness of the inputs. The precondition is the conjunction, over the seven argument arrays, of
  "every entry x has |x| < +∞", each conjunct an and-reduction of the elementwise comparison to one word.
  At the extended reals |x| = max x (-x), and max x (-x) < ⊤ excludes x = ⊤ and x = ⊥: x is a real number.
-/
import proofs.«157128_j17892833755600_2_alg».proof.Defs
import Idealize.ShloMosaic.Lib.ReduceAll
import Idealize.ShloMosaic.Lib.ValueIdx

namespace Cert.KernelIdeal.FiniteInputs

open Idealize.ShloMosaic Idealize.SL.Sem

/-- The scalar shape has one index. -/
instance : Subsingleton Cert.Pre_finite_inputs.S_.Idx := ⟨fun a b => funext fun d => d.elim0⟩

/-- The f32 pattern 0x7F800000 denotes +∞. -/
theorem inf_pattern : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞, as the comparison word, gives a real number. -/
theorem real_of_test (x : EReal)
    (h : Ideal.cmp .olt (max x (-x)) (Ideal.ofBits .f32 0x7F800000#32) = 1#1) : ∃ r : ℝ, x = (r : EReal) := by
  rw [inf_pattern] at h
  refine real_of_abs_lt_top x ?_
  by_contra hn
  simp [Ideal.cmp, hn] at h

/-- One input array: if the conjunction over all entries of |a i| < +∞ is the word 1, every entry is a real number. -/
theorem all_real {s t u : Shape} {axes : List (Fin s.rank)} [Subsingleton t.Idx]
    (a : FVec Ideal s .f32) (hb : Cert.Pre_finite_inputs.S_.BroadcastsInDim s (![] : Fin 0 → Fin s.rank))
    (init : IVec u 1) (hr : s.ReducesTo axes t) (hu : 0 < u.numel) (j : t.Idx)
    (e : Host.reduce IntOp.andi
          (cmpf .olt (Host.absf a)
            (broadcastInDim s ![] hb (constant (F := Ideal) Cert.Pre_finite_inputs.S_ .f32 0x7F800000#32)))
          init hr hu j = 1#1) :
    ∀ i, ∃ r : ℝ, a i = (r : EReal) := fun i =>
  real_of_test (a i) (Host.reduce_andi_all _ init hr hu j e i)

/-- The printed precondition, all ones, makes every entry of each of the seven input arrays a real number. -/
theorem fn_real [Cert.Pre_finite_inputs.Facts]
    (a0 a1 a2 : FVec Ideal Cert.Pre_finite_inputs.S2x2048x1024 .f32)
    (a3 a4 a5 a6 : FVec Ideal Cert.Pre_finite_inputs.S1024x1024 .f32)
    (h : Cert.Pre_finite_inputs.fn (F := Ideal) a0 a1 a2 a3 a4 a5 a6 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal))
      ∧ (∀ i, ∃ x : ℝ, a6 i = (x : EReal)) := by
  have h0 := congrFun h ValueIdx.ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6⟩

/-- The same at a memory that satisfies the kernel's precondition, on every device. -/
theorem args_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg1) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg4) i = (x : EReal))
      ∧ (∀ i, ∃ x : ℝ, m ((c.tc : Thread Cert.KernelIdeal.nD Cert.KernelIdeal.τ).loc Cert.KernelIdeal.main_arg5) i = (x : EReal))
      ∧ (∀ i, ∃ x : ℝ, m ((c.tc : Thread Cert.KernelIdeal.nD Cert.KernelIdeal.τ).loc Cert.KernelIdeal.main_arg6) i = (x : EReal)) :=
  fn_real _ _ _ _ _ _ _ (h c)

end Cert.KernelIdeal.FiniteInputs
-- ==== Proof.lean ====
/-
  Multi-head attention as five kernel regions against its plain reference, over the extended reals.

  Both programs compute, from activations q, k, v [2, 2048, 1024] and weights Wq, Wk, Wv, Wo
  [1024, 1024]: the three linear layers x Wᵀ; in each of sixteen heads of sixty-four features the
  scores of every query position against every key position, scaled; the weights exp(score − row
  maximum) normalised by their row sum; the weighted sums of the value rows; and a last linear layer.

  The reference divides the scores by √64 and each weight by the row's sum. The kernel keeps the heads
  packed along the feature axis, multiplies the scores by the word of 1/8 and each weight by the
  reciprocal of the row's sum, and walks the heads two at a time; its matrix products, maxima and sums
  are the same exact operations. √64 is 8 and the word of 1/8 is 1/8, so the scores agree at every
  extended real. The two normalisations agree exactly when the row's sum is not zero; a row of real
  scores has a largest entry whose weight is exp 0 = 1, so its sum is at least 1. That every score is
  real follows from the precondition: every input entry is a real number, and finite sums of products
  of real numbers are real. That is the one place the precondition is used.

  The frames of the two kernels' programs are the generated ones; the reference's frame is its run
  with the result dropped; the idealization rewrote nothing, so it has nothing to preserve.
-/
import proofs.«157128_j17892833755600_2_alg».proof.Defs
import proofs.«157128_j17892833755600_2_alg».proof.Proof.Gen.Kernel
import proofs.«157128_j17892833755600_2_alg».proof.Proof.Gen.Kernel.Skeleton
import proofs.«157128_j17892833755600_2_alg».proof.Proof.Gen.Kernel.Loops
import proofs.«157128_j17892833755600_2_alg».proof.Proof.Gen.Kernel.Launch
import proofs.«157128_j17892833755600_2_alg».proof.Proof.Gen.Kernel.Points
import proofs.«157128_j17892833755600_2_alg».proof.Proof.Gen.Kernel.Frame
import proofs.«157128_j17892833755600_2_alg».proof.Proof.Gen.KernelIdeal
import proofs.«157128_j17892833755600_2_alg».proof.Proof.Gen.KernelIdeal.Skeleton
import proofs.«157128_j17892833755600_2_alg».proof.Proof.Gen.KernelIdeal.Loops
import proofs.«157128_j17892833755600_2_alg».proof.Proof.Gen.KernelIdeal.Launch
import proofs.«157128_j17892833755600_2_alg».proof.Proof.Gen.KernelIdeal.Points
import proofs.«157128_j17892833755600_2_alg».proof.Proof.Gen.KernelIdeal.Frame
import proofs.«157128_j17892833755600_2_alg».proof.Proof.Gen.ReferenceIdeal
import proofs.«157128_j17892833755600_2_alg».proof.Proof.Gen.Pre_finite_inputs
import proofs.«157128_j17892833755600_2_alg».proof.Proof.Gen.ReferenceIdeal.Run
import proofs.«157128_j17892833755600_2_alg».proof.Proof.Gen.ReferenceIdeal.Read
import proofs.«157128_j17892833755600_2_alg».proof.Proof.KernelRun
import proofs.«157128_j17892833755600_2_alg».proof.Proof.KernelValue
import proofs.«157128_j17892833755600_2_alg».proof.Proof.ProjectedArrays
import proofs.«157128_j17892833755600_2_alg».proof.Proof.AttnArray
import proofs.«157128_j17892833755600_2_alg».proof.Proof.AttnBlock
import proofs.«157128_j17892833755600_2_alg».proof.Proof.RefAttn
import proofs.«157128_j17892833755600_2_alg».proof.Proof.SpecLaws
import proofs.«157128_j17892833755600_2_alg».proof.Proof.FiniteInputs
import Idealize.ShloMosaic.Adequacy
import Idealize.ShloMosaic.Init

noncomputable section

namespace Cert.Proof

open Idealize.ShloMosaic Idealize.ShloMosaic.TcCoe Idealize.SL.Sem

/-- The two kernels' programs run and leave their arguments alone. -/
theorem frame_kernel : Cert.frame_Kernel := fun m ρ _ => Cert.Kernel.Gen.frame m ρ
theorem frame_kernelIdeal : Cert.frame_KernelIdeal := fun m ρ _ => Cert.KernelIdeal.Gen.frame m ρ
/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The attention region's output array is the contexts of all heads of its three input arrays. -/
theorem region3_array (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (b : Fin 2) (s : Fin 2048) (e : Fin 1024) :
    (Cert.KernelIdeal.Gen.dat3 (F := Ideal) V c).arrAt 3 Cert.KernelIdeal.cfg3.N (ValueIdx.ix3 b s e)
      = Cert.Attn.ctxMul (V c (Pipeline.arrRef Cert.KernelIdeal.spec3 0)) (V c (Pipeline.arrRef Cert.KernelIdeal.spec3 1)) (V c (Pipeline.arrRef Cert.KernelIdeal.spec3 2)) b s
          (Cert.Attn.headOf e) (Cert.Attn.coordOf e) :=
  Cert.KernelIdeal.AttnRegion.arr3_of Cert.KernelIdeal.AttnRegion.blockOf_apply V c b s e

/-- The idealized kernel ends with attention (reciprocal form) of its arguments; the reference ends with attention
    (division form) of its own, which are the same arrays; under the precondition the two forms are one function. -/
theorem algebraic : Cert.algebraic_KernelIdeal_ReferenceIdeal := by
  intro m ρ m' ρ' hpre hagree
  refine ⟨fun c => Cert.Attn.attnMul (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.kernel_value_of_arrays region3_array m ρ c
          (Cert.KernelIdeal.Fold.qh_eq m ρ c) (Cert.KernelIdeal.Fold.kh_eq m ρ c) (Cert.KernelIdeal.Fold.vh_eq m ρ c)), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    obtain ⟨r0, r1, r2, r3, r4, r5, r6⟩ := Cert.KernelIdeal.FiniteInputs.args_real m hpre c
    rw [Cert.ReferenceIdeal.Read.val_main_v27_eq, Cert.ReferenceIdeal.RefValue.result_eq, h0, h1, h2, h3, h4, h5, h6]
    exact Cert.Attn.attnDiv_eq_attnMul _ _ _ _ _ _ _ r0 r1 r3 r4

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
